-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x32x16x16 : Shape := ⟨5, ![16, 128, 32, 16, 16]⟩
abbrev S16x8192 : Shape := ⟨2, ![16, 8192]⟩
abbrev S16 : Shape := ⟨1, ![16]⟩
abbrev S4096x8192 : Shape := ⟨2, ![4096, 8192]⟩
abbrev S4096 : Shape := ⟨1, ![4096]⟩
abbrev S_ : Shape := ⟨0, ![]⟩

class Facts : Prop where
  bcast_S_S16x128x32x16x16 : S_.BroadcastsInDim S16x128x32x16x16 (![] : Fin 0 → Fin S16x128x32x16x16.rank)
  reducesTo_S16x128x32x16x16_S_d0_1_2_3_4 : S16x128x32x16x16.ReducesTo [0, 1, 2, 3, 4] S_
  h_S_ : 0 < S_.numel
  bcast_S_S16x8192 : S_.BroadcastsInDim S16x8192 (![] : Fin 0 → Fin S16x8192.rank)
  reducesTo_S16x8192_S_d0_1 : S16x8192.ReducesTo [0, 1] S_
  bcast_S_S16 : S_.BroadcastsInDim S16 (![] : Fin 0 → Fin S16.rank)
  reducesTo_S16_S_d0 : S16.ReducesTo [0] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S16x8192 .f32) (main_arg5 : FVec F S16 .f32) (main_arg6 : FVec F S4096x8192 .f32) (main_arg7 : FVec F S4096 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8192 .f32 := Host.absf main_arg4
  let main_cst_6 : FVec F S_ .f32 := constant S_ .f32 0x7F800000#32
  let main_v20 : FVec F S16x8192 .f32 := broadcastInDim S16x8192 ![] bcast_S_S16x8192 main_cst_6
  let main_v21 : IVec S16x8192 1 := cmpf .olt main_v19 main_v20
  let main_c_7 : IVec S_ 1 := constantI S_ 1 1#1
  let main_v22 : IVec S_ 1 := (fun x v => Host.reduce IntOp.andi x v reducesTo_S16x8192_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S4096x8192 .f32 := Host.absf main_arg6
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  fn_part2 (F := F) main_arg7 main_v33

def fn {F : FTy → Type} [FloatOps F] (main_arg0 : FVec F S16x128x32x16x16 .f32) (main_arg1 : FVec F S16x128x32x16x16 .f32) (main_arg2 : FVec F S16x8192 .f32) (main_arg3 : FVec F S16 .f32) (main_arg4 : FVec F S16x8192 .f32) (main_arg5 : FVec F S16 .f32) (main_arg6 : FVec F S4096x8192 .f32) (main_arg7 : FVec F S4096 .f32) : IVec S_ 1 :=
  let main_v0 : FVec F S16x128x32x16x16 .f32 := Host.absf main_arg0
  let main_cst : FVec F S_ .f32 := constant S_ .f32 0x7F800000#32
  let main_v1 : FVec F S16x128x32x16x16 .f32 := broadcastInDim S16x128x32x16x16 ![] bcast_S_S16x128x32x16x16 main_cst
  let main_v2 : IVec S16x128x32x16x16 1 := cmpf .olt main_v0 main_v1
  let main_c : IVec S_ 1 := constantI S_ 1 1#1
  let main_v3 : IVec S_ 1 := (fun x v => Host.reduce IntOp.andi x v reducesTo_S16x128x32x16x16_S_d0_1_2_3_4 h_S_) main_v2 main_c
  let main_v4 : FVec F S16x128x32x16x16 .f32 := Host.absf main_arg1
  let main_cst_0 : FVec F S_ .f32 := constant S_ .f32 0x7F800000#32
  let main_v5 : FVec F S16x128x32x16x16 .f32 := broadcastInDim S16x128x32x16x16 ![] bcast_S_S16x128x32x16x16 main_cst_0
  let main_v6 : IVec S16x128x32x16x16 1 := cmpf .olt main_v4 main_v5
  let main_c_1 : IVec S_ 1 := constantI S_ 1 1#1
  let main_v7 : IVec S_ 1 := (fun x v => Host.reduce IntOp.andi x v reducesTo_S16x128x32x16x16_S_d0_1_2_3_4 h_S_) main_v6 main_c_1
  let main_v8 : IVec S_ 1 := andi main_v3 main_v7
  let main_v9 : FVec F S16x8192 .f32 := Host.absf main_arg2
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_c_3 : IVec S_ 1 := constantI S_ 1 1#1
  let main_v12 : IVec S_ 1 := (fun x v => Host.reduce IntOp.andi x v reducesTo_S16x8192_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S16x128x32x16x16 : Shape := ⟨5, ![16, 128, 32, 16, 16]⟩
abbrev S16x8192 : Shape := ⟨2, ![16, 8192]⟩
abbrev S16 : Shape := ⟨1, ![16]⟩
abbrev S4096x8192 : Shape := ⟨2, ![4096, 8192]⟩
abbrev S4096 : Shape := ⟨1, ![4096]⟩
abbrev S16x128x8192 : Shape := ⟨3, ![16, 128, 8192]⟩
abbrev S16x128x128 : Shape := ⟨3, ![16, 128, 128]⟩
abbrev S1x128x8192 : Shape := ⟨3, ![1, 128, 8192]⟩
abbrev S1x128x128 : Shape := ⟨3, ![1, 128, 128]⟩
abbrev S128x8192 : Shape := ⟨2, ![128, 8192]⟩
abbrev S128x16 : Shape := ⟨2, ![128, 16]⟩
abbrev S1x16 : Shape := ⟨2, ![1, 16]⟩
abbrev S128x128 : Shape := ⟨2, ![128, 128]⟩
abbrev S128 : Shape := ⟨1, ![128]⟩
abbrev S1x128 : Shape := ⟨2, ![1, 128]⟩
abbrev S2048x8192 : Shape := ⟨2, ![2048, 8192]⟩
abbrev S16x128x4096 : Shape := ⟨3, ![16, 128, 4096]⟩
abbrev S256x8192 : Shape := ⟨2, ![256, 8192]⟩
abbrev S1024x8192 : Shape := ⟨2, ![1024, 8192]⟩
abbrev S1024 : Shape := ⟨1, ![1024]⟩
abbrev S2x128x128 : Shape := ⟨3, ![2, 128, 128]⟩
abbrev S2x128x1024 : Shape := ⟨3, ![2, 128, 1024]⟩
abbrev S256x1024 : Shape := ⟨2, ![256, 1024]⟩
abbrev S1x1024 : Shape := ⟨2, ![1, 1024]⟩
abbrev S1x128x1024 : Shape := ⟨3, ![1, 128, 1024]⟩
abbrev S128x1024 : Shape := ⟨2, ![128, 1024]⟩
abbrev S16x128x16x16x16 : Shape := ⟨5, ![16, 128, 16, 16, 16]⟩

abbrev nBuf : Space → Nat
  | .hbm => 16
  | .vmem => 21
  | .smem => 0
  | _ => 0

abbrev bufTy : (tb : Table) → Fin (tcTables nBuf tb) → BufTy
  | .hbm, ⟨0, _⟩ => ⟨S16x128x32x16x16, .f32⟩
  | .hbm, ⟨1, _⟩ => ⟨S16x128x32x16x16, .f32⟩
  | .hbm, ⟨2, _⟩ => ⟨S16x8192, .f32⟩
  | .hbm, ⟨3, _⟩ => ⟨S16, .f32⟩
  | .hbm, ⟨4, _⟩ => ⟨S16x8192, .f32⟩
  | .hbm, ⟨5, _⟩ => ⟨S16, .f32⟩
  | .hbm, ⟨6, _⟩ => ⟨S4096x8192, .f32⟩
  | .hbm, ⟨7, _⟩ => ⟨S4096, .f32⟩
  | .hbm, ⟨8, _⟩ => ⟨S16x128x8192, .f32⟩
  | .hbm, ⟨9, _⟩ => ⟨S16x128x8192, .f32⟩
  | .hbm, ⟨10, _⟩ => ⟨S4096x8192, .bf16⟩
  | .hbm, ⟨11, _⟩ => ⟨S16x128x128, .bf16⟩
  | .hbm, ⟨12, _⟩ => ⟨S16x128x8192, .bf16⟩
  | .hbm, ⟨13, _⟩ => ⟨S2048x8192, .bf16⟩
  | .hbm, ⟨14, _⟩ => ⟨S16x128x4096, .f32⟩
  | .hbm, ⟨15, _⟩ => ⟨S16x128x16x16x16, .f32⟩
  | .local _ .vmem, ⟨0, _⟩ => ⟨S1x128x8192, .f32⟩
  | .local _ .vmem, ⟨1, _⟩ => ⟨S1x128x8192, .f32⟩
  | .local _ .vmem, ⟨2, _⟩ => ⟨S1x128x8192, .f32⟩
  | .local _ .vmem, ⟨3, _⟩ => ⟨S1x128x8192, .f32⟩
  | .local _ .vmem, ⟨4, _⟩ => ⟨S16x8192, .f32⟩
  | .local _ .vmem, ⟨5, _⟩ => ⟨S16, .f32⟩
  | .local _ .vmem, ⟨6, _⟩ => ⟨S16x8192, .f32⟩
  | .local _ .vmem, ⟨7, _⟩ => ⟨S16, .f32⟩
  | .local _ .vmem, ⟨8, _⟩ => ⟨S1x128x128, .bf16⟩
  | .local _ .vmem, ⟨9, _⟩ => ⟨S1x128x128, .bf16⟩
  | .local _ .vmem, ⟨10, _⟩ => ⟨S1x128x8192, .bf16⟩
  | .local _ .vmem, ⟨11, _⟩ => ⟨S1x128x8192, .bf16⟩
  | .local _ .vmem, ⟨12, _⟩ => ⟨S256x8192, .bf16⟩
  | .local _ .vmem, ⟨13, _⟩ => ⟨S256x8192, .bf16⟩
  | .local _ .vmem, ⟨14, _⟩ => ⟨S1024x8192, .bf16⟩
  | .local _ .vmem, ⟨15, _⟩ => ⟨S1024, .f32⟩
  | .local _ .vmem, ⟨16, _⟩ => ⟨S1024, .f32⟩
  | .local _ .vmem, ⟨17, _⟩ => ⟨S2x128x128, .bf16⟩
  | .local _ .vmem, ⟨18, _⟩ => ⟨S2x128x128, .bf16⟩
  | .local _ .vmem, ⟨19, _⟩ => ⟨S2x128x1024, .f32⟩
  | .local _ .vmem, ⟨20, _⟩ => ⟨S2x128x1024, .f32⟩
  | _, _ => ⟨S16x128x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S16x128x32x16x16_S16x128x8192 : S16x128x32x16x16.ShapeCasts S16x128x8192
  bitsLt_bf16_f32 : FTy.bits .bf16 < FTy.bits .f32
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  inb_S16x8192_S16x8192_0_0 : ∀ a, (![0, 0] : Fin 2 → Nat) a + S16x8192.size a ≤ S16x8192.size a
  h_S16x8192 : 0 < S16x8192.numel
  inb_S16_S16_0 : ∀ a, (![0] : Fin 1 → Nat) a + S16.size a ≤ S16.size a
  h_S16 : 0 < S16.numel
  shapeCasts_S16_S1x16 : S16.ShapeCasts S1x16
  broadcasts_S1x16_S128x16 : S1x16.Broadcasts S128x16
  reduces_S128x128_S128 : S128x128.Reduces [0] S128
  shapeCasts_S128_S1x128 : S128.ShapeCasts S1x128
  broadcasts_S1x128_S128x128 : S1x128.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  packedbf16_S1x128x128_S1x128x128_0_0_0 : (Rect.unit (s := S1x128x128) ![0, 0, 0] S1x128x128.size inb_S1x128x128_S1x128x128_0_0_0).PackedRows (EltTy.packing .bf16)
  shapeCasts_S128x8192_S1x128x8192 : S128x8192.ShapeCasts S1x128x8192
  packedbf16_S1x128x8192_S1x128x8192_0_0_0 : (Rect.unit (s := S1x128x8192) ![0, 0, 0] S1x128x8192.size inb_S1x128x8192_S1x128x8192_0_0_0).PackedRows (EltTy.packing .bf16)
  shapeCasts_S16x128x8192_S2048x8192 : S16x128x8192.ShapeCasts S2048x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S2x128x1024 : S256x1024.ShapeCasts S2x128x1024
  inb_S2x128x128_S1x128x128_0_0_0 : ∀ a, (![0, 0, 0] : Fin 3 → Nat) a + S1x128x128.size a ≤ S2x128x128.size a
  slices_S2x128x1024_o0_0_0_S1x128x1024 : S2x128x1024.Slices ![0, 0, 0] S1x128x1024
  shapeCasts_S1x128x1024_S128x1024 : S1x128x1024.ShapeCasts S128x1024
  inb_S2x128x1024_S1x128x1024_0_0_0 : ∀ a, (![0, 0, 0] : Fin 3 → Nat) a + S1x128x1024.size a ≤ S2x128x1024.size a
  h_S1x128x1024 : 0 < S1x128x1024.numel
  shapeCasts_S128x1024_S1x128x1024 : S128x1024.ShapeCasts S1x128x1024
  inb_S2x128x128_S1x128x128_1_0_0 : ∀ a, (![1, 0, 0] : Fin 3 → Nat) a + S1x128x128.size a ≤ S2x128x128.size a
  slices_S2x128x1024_o1_0_0_S1x128x1024 : S2x128x1024.Slices ![1, 0, 0] S1x128x1024
  inb_S2x128x1024_S1x128x1024_1_0_0 : ∀ a, (![1, 0, 0] : Fin 3 → Nat) a + S1x128x1024.size a ≤ S2x128x1024.size a
  shapeCasts_S16x128x4096_S16x128x16x16x16 : S16x128x4096.ShapeCasts S16x128x16x16x16
  dot_S128x8192_S16x8192_S128x16_1_1_0_0_n_n_wf : DotDims.WF S128x8192 S16x8192 S128x16 [1] [1] [0] [0] [] []
  dot_S128x16_S128x16_S128x128_1_1_0_0_n_n_wf : DotDims.WF S128x16 S128x16 S128x128 [1] [1] [0] [0] [] []
  dot_S256x8192_S1024x8192_S256x1024_1_1_0_0_n_n_wf : DotDims.WF S256x8192 S1024x8192 S256x1024 [1] [1] [0] [0] [] []
  dot_S128x128_S128x1024_S128x1024_1_0_0_1_n_n_wf : DotDims.WF S128x128 S128x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S16x128x8192.size a
  hwx0_0 : ∀ i : grid0.Coords, EltTy.bits .f32 = 32 ∨ (Rect.block (s := S16x128x8192) S1x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8192.size a ≤ S16x128x8192.size a
  hwx0_1 : ∀ i : grid0.Coords, EltTy.bits .f32 = 32 ∨ (Rect.block (s := S16x128x8192) S1x128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S16x8192.size a
  hwx0_2 : ∀ i : grid0.Coords, EltTy.bits .f32 = 32 ∨ (Rect.block (s := S16x8192) S16x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x8192.size a ≤ S16x8192.size a
  hwx0_4 : ∀ i : grid0.Coords, EltTy.bits .f32 = 32 ∨ (Rect.block (s := S16x8192) S16x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S16x128x128.size a
  hwx0_6 : ∀ i : grid0.Coords, EltTy.bits .bf16 = 32 ∨ (Rect.block (s := S16x128x128) S1x128x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x8192.size a ≤ S16x128x8192.size a
  hwx0_7 : ∀ i : grid0.Coords, EltTy.bits .bf16 = 32 ∨ (Rect.block (s := S16x128x8192) S1x128x8192.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S2048x8192.size a
  hwx1_0 : ∀ i : grid1.Coords, EltTy.bits .bf16 = 32 ∨ (Rect.block (s := S2048x8192) S256x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x8192.size a ≤ S4096x8192.size a
  hwx1_1 : ∀ i : grid1.Coords, EltTy.bits .bf16 = 32 ∨ (Rect.block (s := S4096x8192) S1024x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x128x128.size a ≤ S16x128x128.size a
  hwx1_3 : ∀ i : grid1.Coords, EltTy.bits .bf16 = 32 ∨ (Rect.block (s := S16x128x128) S2x128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x128x1024.size a ≤ S16x128x4096.size a
  hwx1_4 : ∀ i : grid1.Coords, EltTy.bits .f32 = 32 ∨ (Rect.block (s := S16x128x4096) S2x128x1024.size (cc1_transform_4 i) (hinb1_4 i)).WholeWords (EltTy.packing .f32)

variable [Facts₀]

def dot_S128x8192_S16x8192_S128x16_1_1_0_0_n_n : DotDims S128x8192 S16x8192 S128x16 where
  lhsContracting := [1]
  rhsContracting := [1]
  lhsNonContracting := [0]
  rhsNonContracting := [0]
  lhsBatch := []
  rhsBatch := []
  wf := dot_S128x8192_S16x8192_S128x16_1_1_0_0_n_n_wf
def dot_S128x16_S128x16_S128x128_1_1_0_0_n_n : DotDims S128x16 S128x16 S128x128 where
  lhsContracting := [1]
  rhsContracting := [1]
  lhsNonContracting := [0]
  rhsNonContracting := [0]
  lhsBatch := []
  rhsBatch := []
  wf := dot_S128x16_S128x16_S128x128_1_1_0_0_n_n_wf
def dot_S256x8192_S1024x8192_S256x1024_1_1_0_0_n_n : DotDims S256x8192 S1024x8192 S256x1024 where
  lhsContracting := [1]
  rhsContracting := [1]
  lhsNonContracting := [0]
  rhsNonContracting := [0]
  lhsBatch := []
  rhsBatch := []
  wf := dot_S256x8192_S1024x8192_S256x1024_1_1_0_0_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf

abbrev win0_0 : Pipeline.Window sig grid0 :=
  Pipeline.Window.ofSpec (Memref.whole main_v0) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x128x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S2x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S2x128x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x128x32x16x16 : Shape := ⟨5, ![16, 128, 32, 16, 16]⟩
abbrev S16x8192 : Shape := ⟨2, ![16, 8192]⟩
abbrev S16 : Shape := ⟨1, ![16]⟩
abbrev S4096x8192 : Shape := ⟨2, ![4096, 8192]⟩
abbrev S4096 : Shape := ⟨1, ![4096]⟩
abbrev S16x128x8192 : Shape := ⟨3, ![16, 128, 8192]⟩
abbrev S16x128x16 : Shape := ⟨3, ![16, 128, 16]⟩
abbrev S1x1x16 : Shape := ⟨3, ![1, 1, 16]⟩
abbrev S16x128x128 : Shape := ⟨3, ![16, 128, 128]⟩
abbrev S_ : Shape := ⟨0, ![]⟩
abbrev S16x128 : Shape := ⟨2, ![16, 128]⟩
abbrev S16x1x128 : Shape := ⟨3, ![16, 1, 128]⟩
abbrev S16x128x4096 : Shape := ⟨3, ![16, 128, 4096]⟩
abbrev S1x1x4096 : Shape := ⟨3, ![1, 1, 4096]⟩
abbrev S16x128x16x16x16 : Shape := ⟨5, ![16, 128, 16, 16, 16]⟩

abbrev nBuf : Space → Nat
  | .hbm => 39
  | .vmem => 0
  | .smem => 0
  | _ => 0

abbrev bufTy : (tb : Table) → Fin (tcTables nBuf tb) → BufTy
  | .hbm, ⟨0, _⟩ => ⟨S16x128x32x16x16, .f32⟩
  | .hbm, ⟨1, _⟩ => ⟨S16x128x32x16x16, .f32⟩
  | .hbm, ⟨2, _⟩ => ⟨S16x8192, .f32⟩
  | .hbm, ⟨3, _⟩ => ⟨S16, .f32⟩
  | .hbm, ⟨4, _⟩ => ⟨S16x8192, .f32⟩
  | .hbm, ⟨5, _⟩ => ⟨S16, .f32⟩
  | .hbm, ⟨6, _⟩ => ⟨S4096x8192, .f32⟩
  | .hbm, ⟨7, _⟩ => ⟨S4096, .f32⟩
  | .hbm, ⟨8, _⟩ => ⟨S16x128x8192, .f32⟩
  | .hbm, ⟨9, _⟩ => ⟨S16x128x8192, .f32⟩
  | .hbm, ⟨10, _⟩ => ⟨S16x128x16, .f32⟩
  | .hbm, ⟨11, _⟩ => ⟨S1x1x16, .f32⟩
  | .hbm, ⟨12, _⟩ => ⟨S16x128x16, .f32⟩
  | .hbm, ⟨13, _⟩ => ⟨S16x128x16, .f32⟩
  | .hbm, ⟨14, _⟩ => ⟨S16x128x16, .f32⟩
  | .hbm, ⟨15, _⟩ => ⟨S1x1x16, .f32⟩
  | .hbm, ⟨16, _⟩ => ⟨S16x128x16, .f32⟩
  | .hbm, ⟨17, _⟩ => ⟨S16x128x16, .f32⟩
  | .hbm, ⟨18, _⟩ => ⟨S16x128x128, .f32⟩
  | .hbm, ⟨19, _⟩ => ⟨S_, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S16x1x128, .f32⟩
  | .hbm, ⟨25, _⟩ => ⟨S16x128x128, .f32⟩
  | .hbm, ⟨26, _⟩ => ⟨S16x128x128, .f32⟩
  | .hbm, ⟨27, _⟩ => ⟨S16x128x128, .f32⟩
  | .hbm, ⟨28, _⟩ => ⟨S_, .f32⟩
  | .hbm, ⟨29, _⟩ => ⟨S16x128, .f32⟩
  | .hbm, ⟨30, _⟩ => ⟨S16x1x128, .f32⟩
  | .hbm, ⟨31, _⟩ => ⟨S16x128x128, .f32⟩
  | .hbm, ⟨32, _⟩ => ⟨S16x128x128, .f32⟩
  | .hbm, ⟨33, _⟩ => ⟨S16x128x4096, .f32⟩
  | .hbm, ⟨34, _⟩ => ⟨S1x1x4096, .f32⟩
  | .hbm, ⟨35, _⟩ => ⟨S16x128x4096, .f32⟩
  | .hbm, ⟨36, _⟩ => ⟨S16x128x4096, .f32⟩
  | .hbm, ⟨37, _⟩ => ⟨S16x128x4096, .f32⟩
  | .hbm, ⟨38, _⟩ => ⟨S16x128x16x16x16, .f32⟩
  | _, _ => ⟨S16x128x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  shapeCasts_S16x128x32x16x16_S16x128x8192 : S16x128x32x16x16.ShapeCasts S16x128x8192
  bcast_S16_S1x1x16_2 : S16.BroadcastsInDim S1x1x16 (![2] : Fin 1 → Fin S1x1x16.rank)
  bcast_S1x1x16_S16x128x16_0_1_2 : S1x1x16.BroadcastsInDim S16x128x16 (![0, 1, 2] : Fin 3 → Fin S16x128x16.rank)
  reducesTo_S16x128x128_S16x128_d1 : S16x128x128.ReducesTo [1] S16x128
  h_S_ : 0 < S_.numel
  bcast_S_S16x128 : S_.BroadcastsInDim S16x128 (![] : Fin 0 → Fin S16x128.rank)
  bcast_S16x128_S16x1x128_0_2 : S16x128.BroadcastsInDim S16x1x128 (![0, 2] : Fin 2 → Fin S16x1x128.rank)
  bcast_S16x1x128_S16x128x128_0_1_2 : S16x1x128.BroadcastsInDim S16x128x128 (![0, 1, 2] : Fin 3 → Fin S16x128x128.rank)
  bcast_S4096_S1x1x4096_2 : S4096.BroadcastsInDim S1x1x4096 (![2] : Fin 1 → Fin S1x1x4096.rank)
  bcast_S1x1x4096_S16x128x4096_0_1_2 : S1x1x4096.BroadcastsInDim S16x128x4096 (![0, 1, 2] : Fin 3 → Fin S16x128x4096.rank)
  shapeCasts_S16x128x4096_S16x128x16x16x16 : S16x128x4096.ShapeCasts S16x128x16x16x16
  dot_S16x128x8192_S16x8192_S16x128x16_2_1_01_0_n_n_wf : DotDims.WF S16x128x8192 S16x8192 S16x128x16 [2] [1] [0, 1] [0] [] []
  dot_S16x128x16_S16x128x16_S16x128x128_2_2_1_1_0_0_wf : DotDims.WF S16x128x16 S16x128x16 S16x128x128 [2] [2] [1] [1] [0] [0]
  dot_S16x128x8192_S4096x8192_S16x128x4096_2_1_01_0_n_n_wf : DotDims.WF S16x128x8192 S4096x8192 S16x128x4096 [2] [1] [0, 1] [0] [] []
  dot_S16x128x128_S16x128x4096_S16x128x4096_2_1_1_2_0_0_wf : DotDims.WF S16x128x128 S16x128x4096 S16x128x4096 [2] [1] [1] [2] [0] [0]

variable [Facts₀]

def dot_S16x128x8192_S16x8192_S16x128x16_2_1_01_0_n_n : DotDims S16x128x8192 S16x8192 S16x128x16 where
  lhsContracting := [2]
  rhsContracting := [1]
  lhsNonContracting := [0, 1]
  rhsNonContracting := [0]
  lhsBatch := []
  rhsBatch := []
  wf := dot_S16x128x8192_S16x8192_S16x128x16_2_1_01_0_n_n_wf
def dot_S16x128x16_S16x128x16_S16x128x128_2_2_1_1_0_0 : DotDims S16x128x16 S16x128x16 S16x128x128 where
  lhsContracting := [2]
  rhsContracting := [2]
  lhsNonContracting := [1]
  rhsNonContracting := [1]
  lhsBatch := [0]
  rhsBatch := [0]
  wf := dot_S16x128x16_S16x128x16_S16x128x128_2_2_1_1_0_0_wf
def dot_S16x128x8192_S4096x8192_S16x128x4096_2_1_01_0_n_n : DotDims S16x128x8192 S4096x8192 S16x128x4096 where
  lhsContracting := [2]
  rhsContracting := [1]
  lhsNonContracting := [0, 1]
  rhsNonContracting := [0]
  lhsBatch := []
  rhsBatch := []
  wf := dot_S16x128x8192_S4096x8192_S16x128x4096_2_1_01_0_n_n_wf
def dot_S16x128x128_S16x128x4096_S16x128x4096_2_1_1_2_0_0 : DotDims S16x128x128 S16x128x4096 S16x128x4096 where
  lhsContracting := [2]
  rhsContracting := [1]
  lhsNonContracting := [1]
  rhsNonContracting := [2]
  lhsBatch := [0]
  rhsBatch := [0]
  wf := dot_S16x128x128_S16x128x4096_S16x128x4096_2_1_1_2_0_0_wf

class Facts : Prop extends Facts₀ where

variable [Facts]
-- ==== Proof.Spec.lean ====
/-
  The function both programs compute, written once over plain coordinates.

  For one batch element: two affine maps of the rows of two 128 × 8192 matrices into 16 features (queries from the
  first matrix, keys from the second), the 128 × 128 table of their inner products, each COLUMN of that table
  normalised by a shifted exponential (subtract the column's largest entry, exponentiate, divide by the column's
  total), and that table of weights applied to a third affine map of the first matrix's rows into 4096 features.
  Everything is over the extended reals; the sums are finite sums in the commutative monoid of the extended reals, so
  no order of summation is recorded, and the largest entry of a column is a fold of `max` from the word the programs
  both write for the start value (it is never evaluated: both sides carry the same word).
-/
import Idealize.ShloMosaic.PureOps.Ideal
import Idealize.ShloMosaic.Lib.ValueIdx

noncomputable section

namespace Cert.Attn

open Idealize.ShloMosaic Idealize.ShloMosaic.ValueIdx

/-- An affine map of rows: row `t` of `x` against row `n` of `w`, plus the offset `b n`. -/
def proj {T D N : Nat} (x : Fin T → Fin D → EReal) (w : Fin N → Fin D → EReal) (b : Fin N → EReal) (t : Fin T) (n : Fin N) : EReal :=
  (∑ d : Fin D, x t d * w n d) + b n

/-- The table of inner products of the rows of `q` with the rows of `k`. -/
def score {T S N : Nat} (q : Fin T → Fin N → EReal) (k : Fin S → Fin N → EReal) (t : Fin T) (s : Fin S) : EReal :=
  ∑ f : Fin N, q t f * k s f

/-- The start value of a column's maximum, as the programs write it (the word of −∞; kept as a word). -/
def negInf : EReal := Ideal.ofBits .f32 0xFF800000#32

/-- The largest entry of a column, from the start value. -/
def colMax {T : Nat} (col : Fin T → EReal) : EReal := (Finset.univ : Finset (Fin T)).fold max negInf col

/-- The shifted exponential of an entry: the entry less its column's largest, exponentiated. -/
def weight {T S : Nat} (sc : Fin T → Fin S → EReal) (t : Fin T) (s : Fin S) : EReal :=
  Ideal.exp (sc t s - colMax fun t' => sc t' s)

/-- An entry's share of its column: its shifted exponential over the column's total. -/
def soft {T S : Nat} (sc : Fin T → Fin S → EReal) (t : Fin T) (s : Fin S) : EReal :=
  Ideal.div (weight sc t s) (∑ t' : Fin T, weight sc t' s)

/-- A table of weights applied to the rows of `v`. -/
def mix {T S G : Nat} (a : Fin T → Fin S → EReal) (v : Fin S → Fin G → EReal) (t : Fin T) (g : Fin G) : EReal :=
  ∑ s : Fin S, a t s * v s g

/-- Batch element `b` of a [16, 128, n] array as a table. -/
abbrev slab {n : Nat} (X : (⟨3, ![16, 128, n]⟩ : Shape).Idx → EReal) (b : Fin 16) : Fin 128 → Fin n → EReal :=
  fun t d => X (ix3 b t d)
/-- A rank-2 array as a table, a rank-1 array as a family. -/
abbrev tab {a n : Nat} (W : (⟨2, ![a, n]⟩ : Shape).Idx → EReal) : Fin a → Fin n → EReal := fun f d => W (ix2 f d)
abbrev fam {a : Nat} (B : (⟨1, ![a]⟩ : Shape).Idx → EReal) : Fin a → EReal := fun f => B (ix1 f)

/-- The table of weights of batch element `b`. -/
def attnAt (X1 X2 : (⟨3, ![16, 128, 8192]⟩ : Shape).Idx → EReal) (W1 : (⟨2, ![16, 8192]⟩ : Shape).Idx → EReal)
    (B1 : (⟨1, ![16]⟩ : Shape).Idx → EReal) (W2 : (⟨2, ![16, 8192]⟩ : Shape).Idx → EReal) (B2 : (⟨1, ![16]⟩ : Shape).Idx → EReal)
    (b : Fin 16) : Fin 128 → Fin 128 → EReal :=
  soft (score (proj (slab X1 b) (tab W1) (fam B1)) (proj (slab X2 b) (tab W2) (fam B2)))

/-- The weights as a [16, 128, 128] array. -/
def AttnArr (X1 X2 : (⟨3, ![16, 128, 8192]⟩ : Shape).Idx → EReal) (W1 : (⟨2, ![16, 8192]⟩ : Shape).Idx → EReal)
    (B1 : (⟨1, ![16]⟩ : Shape).Idx → EReal) (W2 : (⟨2, ![16, 8192]⟩ : Shape).Idx → EReal) (B2 : (⟨1, ![16]⟩ : Shape).Idx → EReal) :
    (⟨3, ![16, 128, 128]⟩ : Shape).Idx → EReal :=
  fun i => attnAt X1 X2 W1 B1 W2 B2 (i 0) (i 1) (i 2)

/-- The whole result as a [16, 128, 4096] array: batch element `b`'s weights applied to the third affine map of its rows. -/
def Out (X1 X2 : (⟨3, ![16, 128, 8192]⟩ : Shape).Idx → EReal) (W1 : (⟨2, ![16, 8192]⟩ : Shape).Idx → EReal)
    (B1 : (⟨1, ![16]⟩ : Shape).Idx → EReal) (W2 : (⟨2, ![16, 8192]⟩ : Shape).Idx → EReal) (B2 : (⟨1, ![16]⟩ : Shape).Idx → EReal)
    (W3 : (⟨2, ![4096, 8192]⟩ : Shape).Idx → EReal) (B3 : (⟨1, ![4096]⟩ : Shape).Idx → EReal) :
    (⟨3, ![16, 128, 4096]⟩ : Shape).Idx → EReal :=
  fun i => mix (attnAt X1 X2 W1 B1 W2 B2 (i 0)) (proj (slab X1 (i 0)) (tab W3) (fam B3)) (i 1) (i 2)

/-- The start value is below every fold from it, so taking the larger of the two changes nothing. -/
theorem max_negInf_colMax {T : Nat} (col : Fin T → EReal) : max negInf (colMax col) = colMax col :=
  max_eq_right (Finset.le_fold_max negInf |>.mpr (Or.inl le_rfl))

end Cert.Attn

end
-- ==== Proof.LibColumnSoftmax.lean ====
/-
  Vector operations of a column-normalising exponential, read at an index over the extended reals.

  A vector of `n` entries regarded as one row and spread over `a` rows reads, at `(p, c)`, its entry `c`. The largest
  entry of each column of a `T × S` table, taken from the start word, is the fold of `max` over the column; the table
  less its columns' largest entries, exponentiated, and divided by its columns' totals reads, at `(t, s)`, entry
  `(t, s)`'s share of column `s` (`Cert.Attn.soft`).
-/
import proofs.«149429_j80951543595323_2_alg».proof.Proof.Spec
import Idealize.ShloMosaic.PureOps.Ideal.Laws
import Idealize.ShloMosaic.Lib.ValueIdx
import Idealize.ShloMosaic.Lib.ValueLayout

noncomputable section

namespace Cert.Attn

open Idealize.ShloMosaic Idealize.ShloMosaic.ValueIdx

/-- One row spread over many: `[n] → [1, n] → [a, n]` reads entry `c` at `(p, c)`. -/
theorem rowSpread_apply {α : Type} {a n : Nat} (v : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ v h1) h2 (ix2 p c) = v (ix1 c) :=
  (broadcastTo_1b_ab_apply _ h2 p c).trans (shapeCast_a_1a_apply v h1 0 c)

/-- The index a reduction over the rows inserts: row `k` of column `s`. -/
theorem lift_rows {T S : Nat} (h : (⟨2, ![T, S]⟩ : Shape).Reduces [0] ⟨1, ![S]⟩) (s : Fin S) (k : Fin T) :
    h.lift (ix1 s) k = ix2 k s :=
  funext fun a => Fin.ext (by match a with | ⟨0, _⟩ => rfl | ⟨1, _⟩ => rfl)

/-- The largest entry of column `s`, from the start word. -/
theorem colMax_apply {T S : Nat} (sc : FVec Ideal ⟨2, ![T, S]⟩ .f32) (h : (⟨2, ![T, S]⟩ : Shape).Reduces [0] ⟨1, ![S]⟩) (s : Fin S) :
    multiReduction .maximumf [0] ⟨1, ![S]⟩ sc 0xFF800000#32 h (.inl rfl) rfl (ix1 s) = colMax fun t => sc (ix2 t s) := by
  refine (Ideal.multiReduction_maximumf_single sc 0xFF800000#32 h (.inl rfl) rfl (ix1 s)).trans ?_
  have e : (sc ∘ h.lift (ix1 s)) = fun t : Fin T => sc (ix2 t s) := funext fun t => congrArg sc (lift_rows h s t)
  rw [e]
  rfl

/-- The total of column `s`. -/
theorem colSum_apply {T S : Nat} (e : FVec Ideal ⟨2, ![T, S]⟩ .f32) (h : (⟨2, ![T, S]⟩ : Shape).Reduces [0] ⟨1, ![S]⟩) (s : Fin S) :
    multiReduction .add [0] ⟨1, ![S]⟩ e 0x00000000#32 h (.inl rfl) rfl (ix1 s) = ∑ t : Fin T, e (ix2 t s) := by
  refine (Ideal.multiReduction_add_single e 0x00000000#32 h (.inl rfl) rfl (ix1 s)).trans ?_
  exact Finset.sum_congr rfl fun k _ => congrArg e (lift_rows h s k)

/-- The shifted exponential of entry `(t, s)`. -/
theorem weight_apply {T S : Nat} (sc : FVec Ideal ⟨2, ![T, S]⟩ .f32) (h : (⟨2, ![T, S]⟩ : Shape).Reduces [0] ⟨1, ![S]⟩)
    (h1 : (⟨1, ![S]⟩ : Shape).ShapeCasts ⟨2, ![1, S]⟩) (h2 : (⟨2, ![1, S]⟩ : Shape).Broadcasts ⟨2, ![T, S]⟩) (t : Fin T) (s : Fin S) :
    exp (subf sc (broadcastTo ⟨2, ![T, S]⟩ (shapeCast ⟨2, ![1, S]⟩ (multiReduction .maximumf [0] ⟨1, ![S]⟩ sc 0xFF800000#32 h (.inl rfl) rfl) h1) h2)) (ix2 t s)
      = weight (fun t s => sc (ix2 t s)) t s := by
  unfold weight
  exact congrArg (fun z => Ideal.exp (sc (ix2 t s) - z)) ((rowSpread_apply _ h1 h2 t s).trans (colMax_apply sc h s))

/-- Entry `(t, s)`'s share of its column. -/
theorem softCols_apply {T S : Nat} (sc : FVec Ideal ⟨2, ![T, S]⟩ .f32) (h : (⟨2, ![T, S]⟩ : Shape).Reduces [0] ⟨1, ![S]⟩)
    (h1 : (⟨1, ![S]⟩ : Shape).ShapeCasts ⟨2, ![1, S]⟩) (h2 : (⟨2, ![1, S]⟩ : Shape).Broadcasts ⟨2, ![T, S]⟩) (t : Fin T) (s : Fin S) :
    divf (exp (subf sc (broadcastTo ⟨2, ![T, S]⟩ (shapeCast ⟨2, ![1, S]⟩ (multiReduction .maximumf [0] ⟨1, ![S]⟩ sc 0xFF800000#32 h (.inl rfl) rfl) h1) h2)))
        (broadcastTo ⟨2, ![T, S]⟩ (shapeCast ⟨2, ![1, S]⟩ (multiReduction .add [0] ⟨1, ![S]⟩
          (exp (subf sc (broadcastTo ⟨2, ![T, S]⟩ (shapeCast ⟨2, ![1, S]⟩ (multiReduction .maximumf [0] ⟨1, ![S]⟩ sc 0xFF800000#32 h (.inl rfl) rfl) h1) h2)))
          0x00000000#32 h (.inl rfl) rfl) h1) h2) (ix2 t s)
      = soft (fun t s => sc (ix2 t s)) t s := by
  unfold soft
  refine congrArg₂ Ideal.div (weight_apply sc h h1 h2 t s) ?_
  refine (rowSpread_apply _ h1 h2 t s).trans ((colSum_apply _ h s).trans ?_)
  exact Finset.sum_congr rfl fun k _ => weight_apply sc h h1 h2 k s

end Cert.Attn

end
-- ==== Proof.Region0Body.lean ====
/-
  What the first kernel's body computes, index by index over the extended reals.

  The body loads one batch element's two 128 × 8192 matrices (as [1, 128, 8192] blocks), the two 16 × 8192 matrices and
  the two offset vectors; forms queries and keys (rows against rows, plus the offsets spread over the rows), their
  128 × 128 table of inner products, normalises each COLUMN of the table by the shifted exponential, and stores the
  table as a [1, 128, 128] block; it also stores the first matrix unchanged (a change of float format is the
  identity here). So the first store holds `Cert.Attn.soft (score (proj …) (proj …))` of the loaded blocks and the second
  the first block itself.
-/
import proofs.«149429_j80951543595323_2_alg».proof.Proof.Gen.KernelIdeal.Skeleton
import proofs.«149429_j80951543595323_2_alg».proof.Proof.LibColumnSoftmax

noncomputable section

namespace Cert.KernelIdeal.Region0

open Cert.KernelIdeal Cert.KernelIdeal.Gen Idealize.ShloMosaic Idealize.ShloMosaic.ValueIdx Cert.Attn

/-! ### The matrix product `rowsByRows`: rows of the left operand against rows of the right one -/

theorem rowsByRows_lhs0 (i : S128x16.Idx) (q : dot_S128x8192_S16x8192_S128x16_1_1_0_0_n_n.contr.Idx) : (dot_S128x8192_S16x8192_S128x16_1_1_0_0_n_n.lhsIdx i q 0).val = (i 0).val := by
  unfold DotDims.lhsIdx
  rw [dif_neg (show ¬(0 : Fin S128x8192.rank) ∈ dot_S128x8192_S16x8192_S128x16_1_1_0_0_n_n.lhsBatch by decide), dif_pos (show (0 : Fin S128x8192.rank) ∈ dot_S128x8192_S16x8192_S128x16_1_1_0_0_n_n.lhsNonContracting by decide)]
  rfl
theorem rowsByRows_lhs1 (i : S128x16.Idx) (q : dot_S128x8192_S16x8192_S128x16_1_1_0_0_n_n.contr.Idx) : (dot_S128x8192_S16x8192_S128x16_1_1_0_0_n_n.lhsIdx i q 1).val = (q ⟨0, by decide⟩).val :=
  dot_S128x8192_S16x8192_S128x16_1_1_0_0_n_n.lhsIdx_val_of_single rfl i q
theorem rowsByRows_rhs0 (i : S128x16.Idx) (q : dot_S128x8192_S16x8192_S128x16_1_1_0_0_n_n.contr.Idx) : (dot_S128x8192_S16x8192_S128x16_1_1_0_0_n_n.rhsIdx i q 0).val = (i 1).val := by
  unfold DotDims.rhsIdx
  rw [dif_neg (show ¬(0 : Fin S16x8192.rank) ∈ dot_S128x8192_S16x8192_S128x16_1_1_0_0_n_n.rhsBatch by decide), dif_pos (show (0 : Fin S16x8192.rank) ∈ dot_S128x8192_S16x8192_S128x16_1_1_0_0_n_n.rhsNonContracting by decide)]
  rfl
theorem rowsByRows_rhs1 (i : S128x16.Idx) (q : dot_S128x8192_S16x8192_S128x16_1_1_0_0_n_n.contr.Idx) : (dot_S128x8192_S16x8192_S128x16_1_1_0_0_n_n.rhsIdx i q 1).val = (q ⟨0, by decide⟩).val :=
  dot_S128x8192_S16x8192_S128x16_1_1_0_0_n_n.rhsIdx_val_of_single rfl i q

/-- Into a zero accumulator the product at `(t, n)` is the sum over `k` of row `t` of the left operand times row `n` of the right. -/
theorem rowsByRows_apply {φ₁ φ₂ : FTy} (prec : Option ContractPrecision) (X : FVec Ideal S128x8192 φ₁) (W : FVec Ideal S16x8192 φ₂) (t : Fin 128) (n : Fin 16) :
    matmul dot_S128x8192_S16x8192_S128x16_1_1_0_0_n_n prec X W (constant (F := Ideal) S128x16 .f32 0x00000000#32) (ix2 t n) = ∑ k : Fin 8192, X (ix2 t k) * W (ix2 n k) := by
  simp only [matmul]
  rw [Ideal.matmul_constant_zero_apply, ← Equiv.sum_comp (contrEquiv1 dot_S128x8192_S16x8192_S128x16_1_1_0_0_n_n 8192 rfl rfl).symm]
  refine Finset.sum_congr rfl fun k _ => ?_
  have hk := contrEquiv1_symm_val dot_S128x8192_S16x8192_S128x16_1_1_0_0_n_n 8192 rfl rfl k
  have el : dot_S128x8192_S16x8192_S128x16_1_1_0_0_n_n.lhsIdx (ix2 t n) ((contrEquiv1 dot_S128x8192_S16x8192_S128x16_1_1_0_0_n_n 8192 rfl rfl).symm k) = ix2 t k := funext fun a => Fin.ext (by
    match a with
    | ⟨0, _⟩ => exact rowsByRows_lhs0 _ _
    | ⟨1, _⟩ => exact (rowsByRows_lhs1 _ _).trans hk)
  have er : dot_S128x8192_S16x8192_S128x16_1_1_0_0_n_n.rhsIdx (ix2 t n) ((contrEquiv1 dot_S128x8192_S16x8192_S128x16_1_1_0_0_n_n 8192 rfl rfl).symm k) = ix2 n k := funext fun a => Fin.ext (by
    match a with
    | ⟨0, _⟩ => exact rowsByRows_rhs0 _ _
    | ⟨1, _⟩ => exact (rowsByRows_rhs1 _ _).trans hk)
  rw [el, er]

/-! ### The matrix product `featByFeat`: rows of the left operand against rows of the right one -/

theorem featByFeat_lhs0 (i : S128x128.Idx) (q : dot_S128x16_S128x16_S128x128_1_1_0_0_n_n.contr.Idx) : (dot_S128x16_S128x16_S128x128_1_1_0_0_n_n.lhsIdx i q 0).val = (i 0).val := by
  unfold DotDims.lhsIdx
  rw [dif_neg (show ¬(0 : Fin S128x16.rank) ∈ dot_S128x16_S128x16_S128x128_1_1_0_0_n_n.lhsBatch by decide), dif_pos (show (0 : Fin S128x16.rank) ∈ dot_S128x16_S128x16_S128x128_1_1_0_0_n_n.lhsNonContracting by decide)]
  rfl
theorem featByFeat_lhs1 (i : S128x128.Idx) (q : dot_S128x16_S128x16_S128x128_1_1_0_0_n_n.contr.Idx) : (dot_S128x16_S128x16_S128x128_1_1_0_0_n_n.lhsIdx i q 1).val = (q ⟨0, by decide⟩).val :=
  dot_S128x16_S128x16_S128x128_1_1_0_0_n_n.lhsIdx_val_of_single rfl i q
theorem featByFeat_rhs0 (i : S128x128.Idx) (q : dot_S128x16_S128x16_S128x128_1_1_0_0_n_n.contr.Idx) : (dot_S128x16_S128x16_S128x128_1_1_0_0_n_n.rhsIdx i q 0).val = (i 1).val := by
  unfold DotDims.rhsIdx
  rw [dif_neg (show ¬(0 : Fin S128x16.rank) ∈ dot_S128x16_S128x16_S128x128_1_1_0_0_n_n.rhsBatch by decide), dif_pos (show (0 : Fin S128x16.rank) ∈ dot_S128x16_S128x16_S128x128_1_1_0_0_n_n.rhsNonContracting by decide)]
  rfl
theorem featByFeat_rhs1 (i : S128x128.Idx) (q : dot_S128x16_S128x16_S128x128_1_1_0_0_n_n.contr.Idx) : (dot_S128x16_S128x16_S128x128_1_1_0_0_n_n.rhsIdx i q 1).val = (q ⟨0, by decide⟩).val :=
  dot_S128x16_S128x16_S128x128_1_1_0_0_n_n.rhsIdx_val_of_single rfl i q

/-- Into a zero accumulator the product at `(t, n)` is the sum over `k` of row `t` of the left operand times row `n` of the right. -/
theorem featByFeat_apply {φ₁ φ₂ : FTy} (prec : Option ContractPrecision) (X : FVec Ideal S128x16 φ₁) (W : FVec Ideal S128x16 φ₂) (t : Fin 128) (n : Fin 128) :
    matmul dot_S128x16_S128x16_S128x128_1_1_0_0_n_n prec X W (constant (F := Ideal) S128x128 .f32 0x00000000#32) (ix2 t n) = ∑ k : Fin 16, X (ix2 t k) * W (ix2 n k) := by
  simp only [matmul]
  rw [Ideal.matmul_constant_zero_apply, ← Equiv.sum_comp (contrEquiv1 dot_S128x16_S128x16_S128x128_1_1_0_0_n_n 16 rfl rfl).symm]
  refine Finset.sum_congr rfl fun k _ => ?_
  have hk := contrEquiv1_symm_val dot_S128x16_S128x16_S128x128_1_1_0_0_n_n 16 rfl rfl k
  have el : dot_S128x16_S128x16_S128x128_1_1_0_0_n_n.lhsIdx (ix2 t n) ((contrEquiv1 dot_S128x16_S128x16_S128x128_1_1_0_0_n_n 16 rfl rfl).symm k) = ix2 t k := funext fun a => Fin.ext (by
    match a with
    | ⟨0, _⟩ => exact featByFeat_lhs0 _ _
    | ⟨1, _⟩ => exact (featByFeat_lhs1 _ _).trans hk)
  have er : dot_S128x16_S128x16_S128x128_1_1_0_0_n_n.rhsIdx (ix2 t n) ((contrEquiv1 dot_S128x16_S128x16_S128x128_1_1_0_0_n_n 16 rfl rfl).symm k) = ix2 n k := funext fun a => Fin.ext (by
    match a with
    | ⟨0, _⟩ => exact featByFeat_rhs0 _ _
    | ⟨1, _⟩ => exact (featByFeat_rhs1 _ _).trans hk)
  rw [el, er]

/-! ### The body's stores -/

/-- A [1, 128, 8192] block regarded as a 128 × 8192 matrix. -/
theorem block_rows (x : Vec Ideal S1x128x8192 .f32) (t : Fin 128) (d : Fin 8192) :
    k0_pay1 x (ix2 t d) = x (ix3 (0 : Fin 1) t d) := by
  unfold k0_pay1
  exact shapeCast_1ab_ab_apply x _ t d

/-- Queries (or keys) at `(t, f)`: row `t` of the matrix against row `f` of the weights, plus offset `f`. -/
theorem affine_apply (X : FVec Ideal S128x8192 .f32) (W : FVec Ideal S16x8192 .f32) (b : FVec Ideal S16 .f32) (t : Fin 128) (f : Fin 16) :
    addf (matmul dot_S128x8192_S16x8192_S128x16_1_1_0_0_n_n (some .fp32) X W (constant (F := Ideal) S128x16 .f32 0x00000000#32))
        (broadcastTo S128x16 (shapeCast S1x16 b Facts₀.shapeCasts_S16_S1x16) Facts₀.broadcasts_S1x16_S128x16) (ix2 t f)
      = proj (fun t d => X (ix2 t d)) (tab W) (fam b) t f := by
  unfold proj
  exact congrArg₂ (· + ·) (rowsByRows_apply _ X W t f) (rowSpread_apply b _ _ t f)

/-- The first store: the column-normalised table of the loaded blocks. -/
theorem weights_apply (x0 x1 : Vec Ideal S1x128x8192 .f32) (w1 w2 : Vec Ideal S16x8192 .f32) (b1 b2 : Vec Ideal S16 .f32)
    (u : Fin 1) (t s : Fin 128) :
    k0_pay2 x0 x1 w1 w2 b1 b2 (ix3 u t s)
      = soft (score (proj (fun t d => x0 (ix3 (0 : Fin 1) t d)) (tab w1) (fam b1)) (proj (fun t d => x1 (ix3 (0 : Fin 1) t d)) (tab w2) (fam b2))) t s := by
  unfold k0_pay2
  refine (shapeCast_ab_1ab_apply _ _ u t s).trans ?_
  refine (softCols_apply _ Facts₀.reduces_S128x128_S128 Facts₀.shapeCasts_S128_S1x128 Facts₀.broadcasts_S1x128_S128x128 t s).trans ?_
  refine congrArg (fun sc => soft sc t s) (funext fun t' => funext fun s' => ?_)
  refine (featByFeat_apply _ _ _ t' s').trans ?_
  unfold score
  refine Finset.sum_congr rfl fun f _ => congrArg₂ (· * ·) ?_ ?_
  · refine (affine_apply _ w1 b1 t' f).trans ?_
    exact congrArg (fun X => proj X (tab w1) (fam b1) t' f) (funext fun a => funext fun d => block_rows x0 a d)
  · refine (affine_apply _ w2 b2 s' f).trans ?_
    exact congrArg (fun X => proj X (tab w2) (fam b2) s' f) (funext fun a => funext fun d => shapeCast_1ab_ab_apply x1 _ a d)

/-- The second store: the first block, unchanged. -/
theorem copy_apply (x0 : Vec Ideal S1x128x8192 .f32) (u : Fin 1) (t : Fin 128) (d : Fin 8192) :
    k0_pay3 x0 (ix3 u t d) = x0 (ix3 (0 : Fin 1) t d) := by
  unfold k0_pay3
  refine (shapeCast_ab_1ab_apply _ _ u t d).trans ?_
  exact block_rows x0 t d

end Cert.KernelIdeal.Region0

end
-- ==== Proof.Region0Array.lean ====
/-
  The arrays the first kernel leaves.

  Its grid has one point per batch element. At point `t` the body sees batch element `t` of the two inputs (a block's
  array coordinate on an axis is the block index times the block size plus the coordinate inside the block; the index
  maps put batch element `t` at point `t` and never move the weights and offsets) and writes back batch element `t` of
  the table of weights and of the copy of the first input. The sixteen blocks tile each output array, so after the
  grid the first output IS the table `Cert.Attn.AttnArr` of the arrays the region found, and the second IS the first input.
-/
import proofs.«149429_j80951543595323_2_alg».proof.Proof.Gen.KernelIdeal.Frame
import proofs.«149429_j80951543595323_2_alg».proof.Proof.Region0Body
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The batch element point `t` works on. -/
def batchOf (t : Fin cfg0.N) : Fin 16 := ⟨t.val, t.isLt⟩

/-- The printed index maps over the sixteen points: the batched windows sit at block `(t, 0, 0)`, the others at zero. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-! ### Each input block, read where it lies in its array -/

theorem read_x1 (c : Dev nD) (t : Fin cfg0.N) (a : Fin 128) (d : Fin 8192) :
    iblk0 V c 0 t (ix3 (0 : Fin 1) a d) = V c main_v0 (ix3 (batchOf t) a d) := by
  show V c main_v0 (((cfg0.win 0).blk t).view.emb (ix3 (0 : Fin 1) a d)) = V c main_v0 (ix3 (batchOf t) a d)
  refine congrArg (V c main_v0) (funext fun ax => Fin.ext ?_)
  obtain ⟨e0, e1, e2, -⟩ := index_facts t
  match ax with
  | ⟨0, _⟩ => show win0_0.index t (0 : Fin 3) * 1 + 1 * 0 = t.val; omega
  | ⟨1, _⟩ => show win0_0.index t (1 : Fin 3) * 128 + 1 * a.val = a.val; omega
  | ⟨2, _⟩ => show win0_0.index t (2 : Fin 3) * 8192 + 1 * d.val = d.val; omega

theorem read_x2 (c : Dev nD) (t : Fin cfg0.N) (a : Fin 128) (d : Fin 8192) :
    iblk0 V c 1 t (ix3 (0 : Fin 1) a d) = V c main_v1 (ix3 (batchOf t) a d) := by
  show V c main_v1 (((cfg0.win 1).blk t).view.emb (ix3 (0 : Fin 1) a d)) = V c main_v1 (ix3 (batchOf t) a d)
  refine congrArg (V c main_v1) (funext fun ax => Fin.ext ?_)
  obtain ⟨-, -, -, e0, e1, e2, -⟩ := index_facts t
  match ax with
  | ⟨0, _⟩ => show win0_1.index t (0 : Fin 3) * 1 + 1 * 0 = t.val; omega
  | ⟨1, _⟩ => show win0_1.index t (1 : Fin 3) * 128 + 1 * a.val = a.val; omega
  | ⟨2, _⟩ => show win0_1.index t (2 : Fin 3) * 8192 + 1 * d.val = d.val; omega

theorem read_w1 (c : Dev nD) (t : Fin cfg0.N) (f : Fin 16) (d : Fin 8192) :
    iblk0 V c 2 t (ix2 f d) = V c main_arg2 (ix2 f d) := by
  show V c main_arg2 (((cfg0.win 2).blk t).view.emb (ix2 f d)) = V c main_arg2 (ix2 f d)
  refine congrArg (V c main_arg2) (funext fun ax => Fin.ext ?_)
  obtain ⟨-, -, -, -, -, -, e0, e1, -⟩ := index_facts t
  match ax with
  | ⟨0, _⟩ => show win0_2.index t (0 : Fin 2) * 16 + 1 * f.val = f.val; omega
  | ⟨1, _⟩ => show win0_2.index t (1 : Fin 2) * 8192 + 1 * d.val = d.val; omega

theorem read_b1 (c : Dev nD) (t : Fin cfg0.N) (f : Fin 16) :
    iblk0 V c 3 t (ix1 f) = V c main_arg3 (ix1 f) := by
  show V c main_arg3 (((cfg0.win 3).blk t).view.emb (ix1 f)) = V c main_arg3 (ix1 f)
  refine congrArg (V c main_arg3) (funext fun ax => Fin.ext ?_)
  obtain ⟨-, -, -, -, -, -, -, -, e0, -⟩ := index_facts t
  match ax with
  | ⟨0, _⟩ => show win0_3.index t (0 : Fin 1) * 16 + 1 * f.val = f.val; omega

theorem read_w2 (c : Dev nD) (t : Fin cfg0.N) (f : Fin 16) (d : Fin 8192) :
    iblk0 V c 4 t (ix2 f d) = V c main_arg4 (ix2 f d) := by
  show V c main_arg4 (((cfg0.win 4).blk t).view.emb (ix2 f d)) = V c main_arg4 (ix2 f d)
  refine congrArg (V c main_arg4) (funext fun ax => Fin.ext ?_)
  obtain ⟨-, -, -, -, -, -, -, -, -, e0, e1, -⟩ := index_facts t
  match ax with
  | ⟨0, _⟩ => show win0_4.index t (0 : Fin 2) * 16 + 1 * f.val = f.val; omega
  | ⟨1, _⟩ => show win0_4.index t (1 : Fin 2) * 8192 + 1 * d.val = d.val; omega

theorem read_b2 (c : Dev nD) (t : Fin cfg0.N) (f : Fin 16) :
    iblk0 V c 5 t (ix1 f) = V c main_arg5 (ix1 f) := by
  show V c main_arg5 (((cfg0.win 5).blk t).view.emb (ix1 f)) = V c main_arg5 (ix1 f)
  refine congrArg (V c main_arg5) (funext fun ax => Fin.ext ?_)
  obtain ⟨-, -, -, -, -, -, -, -, -, -, -, e0, -⟩ := index_facts t
  match ax with
  | ⟨0, _⟩ => show win0_5.index t (0 : Fin 1) * 16 + 1 * f.val = f.val; omega

/-! ### Where each output block lies -/

theorem place_weights (t : Fin cfg0.N) (u : Fin 1) (a s : Fin 128) :
    ((cfg0.win 6).blk t).view.emb (ix3 u a s) = ix3 (batchOf t) a s := by
  refine funext fun ax => Fin.ext ?_
  obtain ⟨-, -, -, -, -, -, -, -, -, -, -, -, e0, e1, e2, -⟩ := index_facts t
  have hu : u.val = 0 := by omega
  match ax with
  | ⟨0, _⟩ => show win0_6.index t (0 : Fin 3) * 1 + 1 * u.val = t.val; omega
  | ⟨1, _⟩ => show win0_6.index t (1 : Fin 3) * 128 + 1 * a.val = a.val; omega
  | ⟨2, _⟩ => show win0_6.index t (2 : Fin 3) * 128 + 1 * s.val = s.val; omega

theorem place_copy (t : Fin cfg0.N) (u : Fin 1) (a : Fin 128) (d : Fin 8192) :
    ((cfg0.win 7).blk t).view.emb (ix3 u a d) = ix3 (batchOf t) a d := by
  refine funext fun ax => Fin.ext ?_
  obtain ⟨-, -, -, -, -, -, -, -, -, -, -, -, -, -, -, e0, e1, e2⟩ := index_facts t
  have hu : u.val = 0 := by omega
  match ax with
  | ⟨0, _⟩ => show win0_7.index t (0 : Fin 3) * 1 + 1 * u.val = t.val; omega
  | ⟨1, _⟩ => show win0_7.index t (1 : Fin 3) * 128 + 1 * a.val = a.val; omega
  | ⟨2, _⟩ => show win0_7.index t (2 : Fin 3) * 8192 + 1 * d.val = d.val; omega

/-! ### What point `t` writes back -/

/-- The table of weights of the arrays the region finds. -/
abbrev weightsOf (c : Dev nD) : S16x128x128.Idx → EReal :=
  AttnArr (V c main_v0) (V c main_v1) (V c main_arg2) (V c main_arg3) (V c main_arg4) (V c main_arg5)

theorem flushed_weights (c : Dev nD) (t : Fin cfg0.N) :
    (dat0 V c).flushed 6 t = ((cfg0.win 6).blk t).view.read (Elt Ideal) (weightsOf V c) := by
  show (cfg0.win 6).cut (grid0.coords t) ((dat0 V c).after 6 t) = _
  rw [after0_6]
  unfold out0_6
  rw [View.canon_unit_zero zero3]
  simp only [View.ld_unit_zero (S := S1x128x8192) zero3, View.ld_unit_zero (S := S16x8192) zero2, View.ld_unit_zero (S := S16) zero1]
  funext j
  obtain ⟨u, a, s, rfl⟩ : ∃ (u : Fin 1) (a s : Fin 128), j = ix3 u a s := ⟨j 0, j 1, j 2, eq_ix3 j⟩
  show k0_pay2 (iblk0 V c 0 t) (iblk0 V c 1 t) (iblk0 V c 2 t) (iblk0 V c 4 t) (iblk0 V c 3 t) (iblk0 V c 5 t) (ix3 u a s)
    = weightsOf V c (((cfg0.win 6).blk t).view.emb (ix3 u a s))
  rw [place_weights t u a s]
  refine (weights_apply (iblk0 V c 0 t) (iblk0 V c 1 t) (iblk0 V c 2 t) (iblk0 V c 4 t) (iblk0 V c 3 t) (iblk0 V c 5 t) u a s).trans ?_
  have e0 : (fun (a : Fin 128) (d : Fin 8192) => iblk0 V c 0 t (ix3 (0 : Fin 1) a d)) = slab (V c main_v0) (batchOf t) :=
    funext fun a => funext fun d => read_x1 V c t a d
  have e1 : (fun (a : Fin 128) (d : Fin 8192) => iblk0 V c 1 t (ix3 (0 : Fin 1) a d)) = slab (V c main_v1) (batchOf t) :=
    funext fun a => funext fun d => read_x2 V c t a d
  have e2 : tab (iblk0 V c 2 t) = tab (V c main_arg2) := funext fun f => funext fun d => read_w1 V c t f d
  have e3 : fam (iblk0 V c 3 t) = fam (V c main_arg3) := funext fun f => read_b1 V c t f
  have e4 : tab (iblk0 V c 4 t) = tab (V c main_arg4) := funext fun f => funext fun d => read_w2 V c t f d
  have e5 : fam (iblk0 V c 5 t) = fam (V c main_arg5) := funext fun f => read_b2 V c t f
  rw [e0, e1, e2, e3, e4, e5]
  rfl

theorem flushed_copy (c : Dev nD) (t : Fin cfg0.N) :
    (dat0 V c).flushed 7 t = ((cfg0.win 7).blk t).view.read (Elt Ideal) (fun i => V c main_v0 i) := by
  show (cfg0.win 7).cut (grid0.coords t) ((dat0 V c).after 7 t) = _
  rw [after0_7]
  unfold out0_7
  rw [View.canon_unit_zero zero3]
  simp only [View.ld_unit_zero (S := S1x128x8192) zero3]
  funext j
  obtain ⟨u, a, d, rfl⟩ : ∃ (u : Fin 1) (a : Fin 128) (d : Fin 8192), j = ix3 u a d := ⟨j 0, j 1, j 2, eq_ix3 j⟩
  show k0_pay3 (iblk0 V c 0 t) (ix3 u a d) = V c main_v0 (((cfg0.win 7).blk t).view.emb (ix3 u a d))
  rw [place_copy t u a d]
  exact (copy_apply (iblk0 V c 0 t) u a d).trans (read_x1 V c t a d)

/-! ### The blocks tile the arrays -/

theorem mem_weights_blk (t : Fin cfg0.N) (i : S16x128x128.Idx) :
    i ∈ ((cfg0.win 6).blk t).view.set ↔ ∀ a : Fin 3, win0_6.index t a * S1x128x128.size a ≤ (i a).val ∧ (i a).val < win0_6.index t a * S1x128x128.size a + S1x128x128.size a := by
  show i ∈ ((View.whole main_v3_0).slice (win0_6.rect t)).set ↔ _
  rw [View.set_slice_whole, Rect.mem_set_unit]
  exact Iff.rfl

theorem mem_copy_blk (t : Fin cfg0.N) (i : S16x128x8192.Idx) :
    i ∈ ((cfg0.win 7).blk t).view.set ↔ ∀ a : Fin 3, win0_7.index t a * S1x128x8192.size a ≤ (i a).val ∧ (i a).val < win0_7.index t a * S1x128x8192.size a + S1x128x8192.size a := by
  show i ∈ ((View.whole main_v3_1).slice (win0_7.rect t)).set ↔ _
  rw [View.set_slice_whole, Rect.mem_set_unit]
  exact Iff.rfl

theorem cover_weights (i : S16x128x128.Idx) : ∃ t : Fin cfg0.N, (cfg0.win 6).flush t = true ∧ i ∈ ((cfg0.win 6).blk t).view.set := by
  have h0 : (i 0).val < 16 := (i 0).isLt
  have h1 : (i 1).val < 128 := (i 1).isLt
  have h2 : (i 2).val < 128 := (i 2).isLt
  obtain ⟨t, ht⟩ : ∃ t : Fin cfg0.N, t.val = (i 0).val := ⟨⟨(i 0).val, h0⟩, rfl⟩
  refine ⟨t, flush0_6 _, ?_⟩
  rw [mem_weights_blk]
  obtain ⟨-, -, -, -, -, -, -, -, -, -, -, -, e0, e1, e2, -⟩ := index_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 128 ≤ (i 2).val ∧ (i 2).val < win0_6.index t (2 : Fin 3) * 128 + 128; omega

theorem cover_copy (i : S16x128x8192.Idx) : ∃ t : Fin cfg0.N, (cfg0.win 7).flush t = true ∧ i ∈ ((cfg0.win 7).blk t).view.set := by
  have h0 : (i 0).val < 16 := (i 0).isLt
  have h1 : (i 1).val < 128 := (i 1).isLt
  have h2 : (i 2).val < 8192 := (i 2).isLt
  obtain ⟨t, ht⟩ : ∃ t : Fin cfg0.N, t.val = (i 0).val := ⟨⟨(i 0).val, h0⟩, rfl⟩
  refine ⟨t, flush0_7 _, ?_⟩
  rw [mem_copy_blk]
  obtain ⟨-, -, -, -, -, -, -, -, -, -, -, -, -, -, -, e0, e1, e2⟩ := index_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 8192 ≤ (i 2).val ∧ (i 2).val < win0_7.index t (2 : Fin 3) * 8192 + 8192; omega

/-! ### The arrays after the grid -/

/-- The first output array ends as the table of weights of the arrays the region found. -/
theorem final_weights (c : Dev nD) : (dat0 V c).arrAt 6 cfg0.N = weightsOf V c :=
  (dat0 V c).arrAt_eq_of_cover 6 _ (fun t _ => flushed_weights V c t) cover_weights

/-- The second output array ends as the first input the region found. -/
theorem final_copy (c : Dev nD) : (dat0 V c).arrAt 7 cfg0.N = fun i => V c main_v0 i :=
  (dat0 V c).arrAt_eq_of_cover 7 _ (fun t _ => flushed_copy V c t) cover_copy

end Cert.KernelIdeal.Region0

end
-- ==== Proof.Boundaries.lean ====
/-
  The buffer contents at the boundaries between the program's stretches, as functions of the launch memory.

  Before the first region the host reshapes the two inputs to [16, 128, 8192] and changes the third matrix's float
  format (the identity here). The first region leaves the table of weights and a copy of the reshaped first input.
  Between the regions the host flattens that copy to [2048, 8192]. Nothing else that the second region reads is
  written on the way: the weights' table, the third matrix and its offsets reach it as the earlier stretches left them.
-/
import proofs.«149429_j80951543595323_2_alg».proof.Proof.Gen.KernelIdeal.Frame
import proofs.«149429_j80951543595323_2_alg».proof.Proof.Region0Array
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Attn

variable (m : (ℓ : Loc nD τ sig) → Buf (Elt Ideal) ℓ) (ρ : Dev nD → PrngReg)

/-- The first input as the regions see it: reshaped to [16, 128, 8192]. -/
abbrev X1 (c : Dev nD) : S16x128x8192.Idx → EReal :=
  shapeCast S16x128x8192 (m ((c : Thread nD τ).loc main_arg0)) Facts₀.shapeCasts_S16x128x32x16x16_S16x128x8192
/-- The second input, reshaped likewise. -/
abbrev X2 (c : Dev nD) : S16x128x8192.Idx → EReal :=
  shapeCast S16x128x8192 (m ((c : Thread nD τ).loc main_arg1)) Facts₀.shapeCasts_S16x128x32x16x16_S16x128x8192

/-! ### At the first region's entry -/

theorem entry0_x1 (c : Dev nD) : V1 m ρ c main_v0 = X1 m c := by
  show StableHlo.after hostOps0 (W0 m ρ c) (Proc.devRef .tc main_v0) = _
  after_results
  rfl
theorem entry0_x2 (c : Dev nD) : V1 m ρ c main_v1 = X2 m c := by
  show StableHlo.after hostOps0 (W0 m ρ c) (Proc.devRef .tc main_v1) = _
  after_results
  rfl
theorem entry0_w1 (c : Dev nD) : V1 m ρ c main_arg2 = m ((c : Thread nD τ).loc main_arg2) := by
  show StableHlo.after hostOps0 (W0 m ρ c) (Proc.devRef .tc main_arg2) = _
  after_results
theorem entry0_b1 (c : Dev nD) : V1 m ρ c main_arg3 = m ((c : Thread nD τ).loc main_arg3) := by
  show StableHlo.after hostOps0 (W0 m ρ c) (Proc.devRef .tc main_arg3) = _
  after_results
theorem entry0_w2 (c : Dev nD) : V1 m ρ c main_arg4 = m ((c : Thread nD τ).loc main_arg4) := by
  show StableHlo.after hostOps0 (W0 m ρ c) (Proc.devRef .tc main_arg4) = _
  after_results
theorem entry0_b2 (c : Dev nD) : V1 m ρ c main_arg5 = m ((c : Thread nD τ).loc main_arg5) := by
  show StableHlo.after hostOps0 (W0 m ρ c) (Proc.devRef .tc main_arg5) = _
  after_results
theorem entry0_w3 (c : Dev nD) : W1 m ρ c (Proc.devRef .tc main_v2) = fun i => m ((c : Thread nD τ).loc main_arg6) i := by
  show StableHlo.after hostOps0 (W0 m ρ c) (Proc.devRef .tc main_v2) = _
  after_results
  rfl
theorem entry0_b3 (c : Dev nD) : W1 m ρ c (Proc.devRef .tc main_arg7) = m ((c : Thread nD τ).loc main_arg7) := by
  show StableHlo.after hostOps0 (W0 m ρ c) (Proc.devRef .tc main_arg7) = _
  after_results

/-- The table of weights, of the launch memory. -/
abbrev weights (c : Dev nD) : S16x128x128.Idx → EReal :=
  AttnArr (X1 m c) (X2 m c) (m ((c : Thread nD τ).loc main_arg2)) (m ((c : Thread nD τ).loc main_arg3))
    (m ((c : Thread nD τ).loc main_arg4)) (m ((c : Thread nD τ).loc main_arg5))

/-! ### At the first region's exit -/

theorem exit0_weights (c : Dev nD) : W2 m ρ c (Proc.devRef .tc main_v3_0) = weights m c := by
  refine (W2_arr m ρ c 6).trans ((Region0.final_weights (V1 m ρ) c).trans ?_)
  unfold Region0.weightsOf
  rw [entry0_x1, entry0_x2, entry0_w1, entry0_b1, entry0_w2, entry0_b2]
theorem exit0_copy (c : Dev nD) : W2 m ρ c (Proc.devRef .tc main_v3_1) = fun i => X1 m c i := by
  refine (W2_arr m ρ c 7).trans ((Region0.final_copy (V1 m ρ) c).trans ?_)
  exact funext fun i => congrFun (entry0_x1 m ρ c) i

/-! ### At the second region's entry -/

theorem entry1_weights (c : Dev nD) : V3 m ρ c main_v3_0 = weights m c := by
  show StableHlo.after hostOps1 (W2 m ρ c) (Proc.devRef .tc main_v3_0) = _
  after_results
  exact exit0_weights m ρ c
theorem entry1_flat (c : Dev nD) :
    V3 m ρ c main_v4 = shapeCast S2048x8192 (fun i => X1 m c i) Facts₀.shapeCasts_S16x128x8192_S2048x8192 := by
  show StableHlo.after hostOps1 (W2 m ρ c) (Proc.devRef .tc main_v4) = _
  after_results
  rw [exit0_copy]
  rfl
theorem entry1_w3 (c : Dev nD) : V3 m ρ c main_v2 = fun i => m ((c : Thread nD τ).loc main_arg6) i := by
  show StableHlo.after hostOps1 (W2 m ρ c) (Proc.devRef .tc main_v2) = _
  after_results
  rw [W2_of_ne m ρ c main_v2 (by decide)]
  exact entry0_w3 m ρ c
theorem entry1_b3 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  exact entry0_b3 m ρ c

end Cert.KernelIdeal.Whole

end
-- ==== Proof.SpecArr.lean ====
/-
  The result in two stages, as the kernel produces it: first the table of weights as an array of its own, then a
  second stage that reads the weights, the first input with its two leading axes flattened into one (row
  `b · 128 + s` of the flat matrix is row `s` of batch element `b`), and the third affine map's matrix and
  offsets. The two-stage result is the one-stage result.
-/
import proofs.«149429_j80951543595323_2_alg».proof.Proof.Spec

noncomputable section

namespace Cert.Attn

open Idealize.ShloMosaic Idealize.ShloMosaic.ValueIdx

/-- Row `s` of batch element `b` in the flattened matrix of 16 · 128 rows. -/
def flat (b : Fin 16) (s : Fin 128) : Fin 2048 := ⟨b.val * 128 + s.val, by have := b.isLt; have := s.isLt; omega⟩

/-- The second stage: weights `A` applied to the affine map (matrix `W3`, offsets `B3`) of the flat matrix `Xf`'s rows. -/
def OutArr (A : (⟨3, ![16, 128, 128]⟩ : Shape).Idx → EReal) (Xf : (⟨2, ![2048, 8192]⟩ : Shape).Idx → EReal)
    (W3 : (⟨2, ![4096, 8192]⟩ : Shape).Idx → EReal) (B3 : (⟨1, ![4096]⟩ : Shape).Idx → EReal) :
    (⟨3, ![16, 128, 4096]⟩ : Shape).Idx → EReal :=
  fun i => mix (slab A (i 0)) (proj (fun (s : Fin 128) (d : Fin 8192) => Xf (ix2 (flat (i 0) s) d)) (tab W3) (fam B3)) (i 1) (i 2)

/-- When the flat matrix holds the first input's rows, the two stages give the whole result. -/
theorem Out_eq_OutArr (X1 X2 : (⟨3, ![16, 128, 8192]⟩ : Shape).Idx → EReal) (W1 : (⟨2, ![16, 8192]⟩ : Shape).Idx → EReal)
    (B1 : (⟨1, ![16]⟩ : Shape).Idx → EReal) (W2 : (⟨2, ![16, 8192]⟩ : Shape).Idx → EReal) (B2 : (⟨1, ![16]⟩ : Shape).Idx → EReal)
    (W3 : (⟨2, ![4096, 8192]⟩ : Shape).Idx → EReal) (B3 : (⟨1, ![4096]⟩ : Shape).Idx → EReal)
    (Xf : (⟨2, ![2048, 8192]⟩ : Shape).Idx → EReal)
    (hXf : ∀ (b : Fin 16) (s : Fin 128) (d : Fin 8192), Xf (ix2 (flat b s) d) = X1 (ix3 b s d)) :
    OutArr (AttnArr X1 X2 W1 B1 W2 B2) Xf W3 B3 = Out X1 X2 W1 B1 W2 B2 W3 B3 := by
  funext i
  unfold OutArr Out
  have hx : (fun (s : Fin 128) (d : Fin 8192) => Xf (ix2 (flat (i 0) s) d)) = slab X1 (i 0) :=
    funext fun s => funext fun d => hXf (i 0) s d
  rw [hx]
  rfl

end Cert.Attn

end
-- ==== Proof.Region1Body.lean ====
/-
  The second kernel's body at one grid point, read index by index.

  The body holds four blocks: 256 rows of the flat matrix, 1024 rows of the third affine map's matrix, the 1024
  matching offsets, and the tables of weights of two batch elements. It forms, for each of its 256 rows r and 1024
  columns n, the row's inner product with matrix row n plus offset n; it regards the 256 rows as two groups of 128
  (row r = i · 128 + s); and for each group i it applies table i of the weights: entry (i, t, n) of the block it
  leaves is the sum over s of weight (i, t, s) times the value at row i · 128 + s and column n.
-/
import proofs.«149429_j80951543595323_2_alg».proof.Proof.Gen.KernelIdeal.Frame
import proofs.«149429_j80951543595323_2_alg».proof.Proof.SpecArr
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx

/-! ## The two products -/

/-- The first product's dimension numbers (rows of the left operand against rows of the right one). -/
abbrev DR : DotDims S256x8192 S1024x8192 S256x1024 := dot_S256x8192_S1024x8192_S256x1024_1_1_0_0_n_n
/-- The second product's dimension numbers (a table's rows against the right operand's columns). -/
abbrev DT : DotDims S128x128 S128x1024 S128x1024 := dot_S128x128_S128x1024_S128x1024_1_0_0_1_n_n

theorem DR_lhs0 (j : S256x1024.Idx) (q : DR.contr.Idx) : (DR.lhsIdx j q 0).val = (j 0).val := by
  unfold DotDims.lhsIdx
  rw [dif_neg (show ¬(0 : Fin S256x8192.rank) ∈ DR.lhsBatch by decide), dif_pos (show (0 : Fin S256x8192.rank) ∈ DR.lhsNonContracting by decide)]
  rfl
theorem DR_lhs1 (j : S256x1024.Idx) (q : DR.contr.Idx) : (DR.lhsIdx j q 1).val = (q ⟨0, by decide⟩).val :=
  DR.lhsIdx_val_of_single rfl j q
theorem DR_rhs0 (j : S256x1024.Idx) (q : DR.contr.Idx) : (DR.rhsIdx j q 0).val = (j 1).val := by
  unfold DotDims.rhsIdx
  rw [dif_neg (show ¬(0 : Fin S1024x8192.rank) ∈ DR.rhsBatch by decide), dif_pos (show (0 : Fin S1024x8192.rank) ∈ DR.rhsNonContracting by decide)]
  rfl
theorem DR_rhs1 (j : S256x1024.Idx) (q : DR.contr.Idx) : (DR.rhsIdx j q 1).val = (q ⟨0, by decide⟩).val :=
  DR.rhsIdx_val_of_single rfl j q

theorem DT_lhs0 (j : S128x1024.Idx) (q : DT.contr.Idx) : (DT.lhsIdx j q 0).val = (j 0).val := by
  unfold DotDims.lhsIdx
  rw [dif_neg (show ¬(0 : Fin S128x128.rank) ∈ DT.lhsBatch by decide), dif_pos (show (0 : Fin S128x128.rank) ∈ DT.lhsNonContracting by decide)]
  rfl
theorem DT_lhs1 (j : S128x1024.Idx) (q : DT.contr.Idx) : (DT.lhsIdx j q 1).val = (q ⟨0, by decide⟩).val :=
  DT.lhsIdx_val_of_single rfl j q
theorem DT_rhs0 (j : S128x1024.Idx) (q : DT.contr.Idx) : (DT.rhsIdx j q 0).val = (q ⟨0, by decide⟩).val :=
  DT.rhsIdx_val_of_single rfl j q
theorem DT_rhs1 (j : S128x1024.Idx) (q : DT.contr.Idx) : (DT.rhsIdx j q 1).val = (j 1).val := by
  unfold DotDims.rhsIdx
  rw [dif_neg (show ¬(1 : Fin S128x1024.rank) ∈ DT.rhsBatch by decide), dif_pos (show (1 : Fin S128x1024.rank) ∈ DT.rhsNonContracting by decide)]
  rfl

/-- Rows against rows: entry (p, n) of the first product into a zero accumulator is the inner product of row p of the
    left operand with row n of the right one. -/
theorem rows_dot_apply (l : FVec Ideal S256x8192 .bf16) (r : FVec Ideal S1024x8192 .bf16) (p : Fin 256) (n : Fin 1024) :
    matmul dot_S256x8192_S1024x8192_S256x1024_1_1_0_0_n_n none l r (constant S256x1024 .f32 0x00000000#32) (ix2 p n)
      = ∑ d : Fin 8192, l (ix2 p d) * r (ix2 n d) := by
  refine (Ideal.matmul_constant_zero_apply DR none l r (ix2 p n)).trans ?_
  rw [← Equiv.sum_comp (contrEquiv1 DR 8192 rfl rfl).symm]
  refine Finset.sum_congr rfl fun k _ => ?_
  have hk := contrEquiv1_symm_val DR 8192 rfl rfl k
  have el : DR.lhsIdx (ix2 p n) ((contrEquiv1 DR 8192 rfl rfl).symm k) = ix2 p k :=
    funext fun a => Fin.ext (by
      match a with
      | ⟨0, _⟩ => exact DR_lhs0 _ _
      | ⟨1, _⟩ => exact (DR_lhs1 _ _).trans hk)
  have er : DR.rhsIdx (ix2 p n) ((contrEquiv1 DR 8192 rfl rfl).symm k) = ix2 n k :=
    funext fun a => Fin.ext (by
      match a with
      | ⟨0, _⟩ => exact DR_rhs0 _ _
      | ⟨1, _⟩ => exact (DR_rhs1 _ _).trans hk)
  rw [el, er]

/-- A table against columns: entry (t, n) of the second product into a zero accumulator is the sum over s of the
    table's entry (t, s) times the right operand's entry (s, n). -/
theorem table_dot_apply (a : FVec Ideal S128x128 .bf16) (v : FVec Ideal S128x1024 .bf16) (t : Fin 128) (n : Fin 1024) :
    matmul dot_S128x128_S128x1024_S128x1024_1_0_0_1_n_n none a v (constant S128x1024 .f32 0x00000000#32) (ix2 t n)
      = ∑ s : Fin 128, a (ix2 t s) * v (ix2 s n) := by
  refine (Ideal.matmul_constant_zero_apply DT none a v (ix2 t n)).trans ?_
  rw [← Equiv.sum_comp (contrEquiv1 DT 128 rfl rfl).symm]
  refine Finset.sum_congr rfl fun k _ => ?_
  have hk := contrEquiv1_symm_val DT 128 rfl rfl k
  have el : DT.lhsIdx (ix2 t n) ((contrEquiv1 DT 128 rfl rfl).symm k) = ix2 t k :=
    funext fun b => Fin.ext (by
      match b with
      | ⟨0, _⟩ => exact DT_lhs0 _ _
      | ⟨1, _⟩ => exact (DT_lhs1 _ _).trans hk)
  have er : DT.rhsIdx (ix2 t n) ((contrEquiv1 DT 128 rfl rfl).symm k) = ix2 k n :=
    funext fun b => Fin.ext (by
      match b with
      | ⟨0, _⟩ => exact (DT_rhs0 _ _).trans hk
      | ⟨1, _⟩ => exact DT_rhs1 _ _)
  rw [el, er]

/-! ## The body's values at an index -/

/-- Row s of group i among the block's 256 rows. -/
def row (i : Fin 2) (s : Fin 128) : Fin 256 := ⟨i.val * 128 + s.val, by have := i.isLt; have := s.isLt; omega⟩

/-- The affine map of the block's rows, regarded as two groups of 128 rows: entry (i, s, n) is the inner product of
    row i · 128 + s of the first block with row n of the second, plus offset n. The change of float format on the
    way is the identity. -/
theorem pay1_apply (x0 : Vec Ideal S256x8192 .bf16) (x1 : Vec Ideal S1024x8192 .bf16) (x2 : Vec Ideal S1024 .f32)
    (i : Fin 2) (s : Fin 128) (n : Fin 1024) :
    k1_pay1 (F := Ideal) x0 x1 x2 (ix3 i s n) = (∑ d : Fin 8192, x0 (ix2 (row i s) d) * x1 (ix2 n d)) + x2 (ix1 n) := by
  unfold k1_pay1
  refine (shapeCast_apply _ shapeCasts_S256x1024_S2x128x1024 (ix3 i s n) (ix2 (row i s) n) ?_).trans ?_
  · rw [Shape.rowMajor_val_two, Shape.rowMajor_val_three]
    rfl
  refine (truncf_apply (φ := .f32) (ψ := .bf16) _ bitsLt_bf16_f32 _).trans ?_
  refine (addf_apply _ _ _).trans ?_
  refine congrArg₂ (· + ·) ?_ ?_
  · refine (rows_dot_apply _ _ _ _).trans ?_
    refine Finset.sum_congr rfl fun d _ => ?_
    rw [shapeCast_self, shapeCast_self]
  · refine (broadcastTo_1b_ab_apply _ _ _ _).trans ?_
    exact shapeCast_a_1a_apply x2 _ 0 n

/-- Applying one table of weights to one group of rows: with w the grouped values, the slice of group o of w against
    the table a, written back as a block with a leading unit axis, has at (·, t, n) the sum over s of a (t, s) times
    w (o, s, n). -/
theorem mix_apply (w : FVec Ideal S2x128x1024 .bf16) (o : Fin 2) (off : Fin S2x128x1024.rank → Nat)
    (hsl : S2x128x1024.Slices off S1x128x1024) (h0 : off 0 = o.val) (h1 : off 1 = 0) (h2 : off 2 = 0)
    (a : FVec Ideal S1x128x128 .bf16) (u : Fin 1) (t : Fin 128) (n : Fin 1024) :
    shapeCast S1x128x1024
        (matmul dot_S128x128_S128x1024_S128x1024_1_0_0_1_n_n none
          (shapeCast S128x128 a shapeCasts_S1x128x128_S128x128)
          (shapeCast S128x1024 (extractStridedSlice S1x128x1024 off w hsl) shapeCasts_S1x128x1024_S128x1024)
          (constant S128x1024 .f32 0x00000000#32))
        shapeCasts_S128x1024_S1x128x1024 (ix3 u t n)
      = ∑ s : Fin 128, a (ix3 (0 : Fin 1) t s) * w (ix3 o s n) := by
  refine (shapeCast_ab_1ab_apply _ _ u t n).trans ?_
  refine (table_dot_apply _ _ t n).trans ?_
  refine Finset.sum_congr rfl fun s _ => ?_
  refine congrArg₂ (· * ·) ?_ ?_
  · exact shapeCast_1ab_ab_apply a _ t s
  · refine (shapeCast_1ab_ab_apply _ _ s n).trans ?_
    refine extractStridedSlice_apply off w hsl (ix3 (0 : Fin 1) s n) (ix3 o s n) fun ax => ?_
    match ax with
    | ⟨0, _⟩ => show o.val = off 0 + 0; omega
    | ⟨1, _⟩ => show s.val = off 1 + s.val; omega
    | ⟨2, _⟩ => show n.val = off 2 + n.val; omega

/-- The first store's payload: table 0 of the weights applied to group 0. -/
theorem pay2_apply (x0 : Vec Ideal S256x8192 .bf16) (x1 : Vec Ideal S1024x8192 .bf16) (x2 : Vec Ideal S1024 .f32)
    (a : Vec Ideal S1x128x128 .bf16) (u : Fin 1) (t : Fin 128) (n : Fin 1024) :
    k1_pay2 (F := Ideal) x0 x1 x2 a (ix3 u t n)
      = ∑ s : Fin 128, a (ix3 (0 : Fin 1) t s) * ((∑ d : Fin 8192, x0 (ix2 (row 0 s) d) * x1 (ix2 n d)) + x2 (ix1 n)) := by
  unfold k1_pay2
  refine (mix_apply (k1_pay1 (F := Ideal) x0 x1 x2) 0 ![0, 0, 0] slices_S2x128x1024_o0_0_0_S1x128x1024 rfl rfl rfl a u t n).trans ?_
  refine Finset.sum_congr rfl fun s _ => ?_
  rw [pay1_apply]

/-- The second store's payload: table 1 of the weights applied to group 1. -/
theorem pay3_apply (x0 : Vec Ideal S256x8192 .bf16) (x1 : Vec Ideal S1024x8192 .bf16) (x2 : Vec Ideal S1024 .f32)
    (a : Vec Ideal S1x128x128 .bf16) (u : Fin 1) (t : Fin 128) (n : Fin 1024) :
    k1_pay3 (F := Ideal) x0 x1 x2 a (ix3 u t n)
      = ∑ s : Fin 128, a (ix3 (0 : Fin 1) t s) * ((∑ d : Fin 8192, x0 (ix2 (row 1 s) d) * x1 (ix2 n d)) + x2 (ix1 n)) := by
  unfold k1_pay3
  refine (mix_apply (k1_pay1 (F := Ideal) x0 x1 x2) 1 ![1, 0, 0] slices_S2x128x1024_o1_0_0_S1x128x1024 rfl rfl rfl a u t n).trans ?_
  refine Finset.sum_congr rfl fun s _ => ?_
  rw [pay1_apply]

end Cert.KernelIdeal.Region1

end
-- ==== Proof.Region1Array.lean ====
/-
  From the blocks the second kernel's grid points leave to the whole array.

  The grid is 4 × 8: the slow coordinate g picks a tile of 1024 columns, the fast coordinate p a pair of batch
  elements. At the point (g, p) the body reads rows 256 · p … 256 · p + 255 of the flat matrix, rows 1024 · g … of the
  third affine map's matrix and the matching offsets, and the tables of weights of batch elements 2 · p and 2 · p + 1;
  it leaves the block (p, 0, g) of the [16, 128, 4096] array in blocks of [2, 128, 1024]. A block's array coordinate
  on an axis is its index times the block's size plus the coordinate inside the block, so entry (i, t, n) of that
  block is the array's entry (2 · p + i, t, 1024 · g + n), and row i · 128 + s of the body's 256 rows is row
  (2 · p + i) · 128 + s of the flat matrix: batch element 2 · p + i's row s. Every array index lies in exactly the
  block (b / 2, 0, n / 1024), so the blocks fill the array with the two-stage result.
-/
import proofs.«149429_j80951543595323_2_alg».proof.Proof.Region1Body

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## What the two stores leave in the staging buffer -/

theorem zeros2 : (![0, 0] : Fin 2 → Nat) = fun _ => 0 := funext fun a => by fin_cases a <;> rfl
theorem zeros1 : (![0] : Fin 1 → Nat) = fun _ => 0 := funext fun a => by fin_cases a <;> rfl

/-- The body loads its first three blocks whole. -/
theorem ld_rows (x0 : Vec Ideal S256x8192 .bf16) : View.ld x0 r1_0 = x0 := View.ld_unit_zero (S := S256x8192) zeros2 _ x0
theorem ld_matrix (x1 : Vec Ideal S1024x8192 .bf16) : View.ld x1 r1_1 = x1 := View.ld_unit_zero (S := S1024x8192) zeros2 _ x1
theorem ld_offsets (x2 : Vec Ideal S1024 .f32) : View.ld x2 r1_2 = x2 := View.ld_unit_zero (S := S1024) zeros1 _ x2

/-- Table 0 of the weights block is its first [1, 128, 128] rectangle, table 1 the second. -/
theorem ld_table0 (x3 : Vec Ideal S2x128x128 .bf16) (t s : Fin 128) :
    View.ld x3 r1_3 (ix3 (0 : Fin 1) t s) = x3 (ix3 (0 : Fin 2) t s) := by
  show x3 (r1_3.emb (ix3 (0 : Fin 1) t s)) = x3 (ix3 (0 : Fin 2) t s)
  refine congrArg x3 (funext fun a => Fin.ext ?_)
  match a with
  | ⟨0, _⟩ => rfl
  | ⟨1, _⟩ => show 0 + 1 * t.val = t.val; omega
  | ⟨2, _⟩ => show 0 + 1 * s.val = s.val; omega
theorem ld_table1 (x3 : Vec Ideal S2x128x128 .bf16) (t s : Fin 128) :
    View.ld x3 r1_5 (ix3 (0 : Fin 1) t s) = x3 (ix3 (1 : Fin 2) t s) := by
  show x3 (r1_5.emb (ix3 (0 : Fin 1) t s)) = x3 (ix3 (1 : Fin 2) t s)
  refine congrArg x3 (funext fun a => Fin.ext ?_)
  match a with
  | ⟨0, _⟩ => rfl
  | ⟨1, _⟩ => show 0 + 1 * t.val = t.val; omega
  | ⟨2, _⟩ => show 0 + 1 * s.val = s.val; omega

/-- Rows (0, ·, ·) of the staging buffer are the first store's rectangle, rows (1, ·, ·) the second's. -/
theorem emb_store0 (t : Fin 128) (n : Fin 1024) : r1_4.emb (ix3 (0 : Fin 1) t n) = ix3 (0 : Fin 2) t n := by
  refine funext fun a => Fin.ext ?_
  match a with
  | ⟨0, _⟩ => rfl
  | ⟨1, _⟩ => show 0 + 1 * t.val = t.val; omega
  | ⟨2, _⟩ => show 0 + 1 * n.val = n.val; omega
theorem emb_store1 (t : Fin 128) (n : Fin 1024) : r1_6.emb (ix3 (0 : Fin 1) t n) = ix3 (1 : Fin 2) t n := by
  refine funext fun a => Fin.ext ?_
  match a with
  | ⟨0, _⟩ => rfl
  | ⟨1, _⟩ => show 0 + 1 * t.val = t.val; omega
  | ⟨2, _⟩ => show 0 + 1 * n.val = n.val; omega
theorem not_mem_store1 (t : Fin 128) (n : Fin 1024) : ix3 (0 : Fin 2) t n ∉ r1_6.set := by
  rw [Rect.mem_set_unit]
  intro h
  have h0 : 1 ≤ 0 := (h 0).1
  omega

/-- The two stores read back, whatever their payloads: group 0 of the buffer holds the earlier store's payload (the
    later store's rectangle misses it), group 1 the later store's. -/
theorem canon_group0 (p1 p0 : Vec Ideal S1x128x1024 .f32) (t : Fin 128) (n : Fin 1024) :
    View.canon ([⟨r1_6, p1⟩, ⟨r1_4, p0⟩] : List (View.Piece (Elt Ideal) S2x128x1024 .f32)) (ix3 (0 : Fin 2) t n)
      = p0 (ix3 (0 : Fin 1) t n) := by
  refine (View.canon_cons_of_not_mem (⟨r1_6, p1⟩ : View.Piece (Elt Ideal) S2x128x1024 .f32) [⟨r1_4, p0⟩]
    (not_mem_store1 t n)).trans ?_
  refine (congrArg (View.canon ([⟨r1_4, p0⟩] : List (View.Piece (Elt Ideal) S2x128x1024 .f32))) (emb_store0 t n).symm).trans ?_
  exact View.canon_cons_emb r1_4 p0 [] (ix3 (0 : Fin 1) t n)
theorem canon_group1 (p1 p0 : Vec Ideal S1x128x1024 .f32) (t : Fin 128) (n : Fin 1024) :
    View.canon ([⟨r1_6, p1⟩, ⟨r1_4, p0⟩] : List (View.Piece (Elt Ideal) S2x128x1024 .f32)) (ix3 (1 : Fin 2) t n)
      = p1 (ix3 (0 : Fin 1) t n) := by
  refine (congrArg (View.canon ([⟨r1_6, p1⟩, ⟨r1_4, p0⟩] : List (View.Piece (Elt Ideal) S2x128x1024 .f32)))
    (emb_store1 t n).symm).trans ?_
  exact View.canon_cons_emb r1_6 p1 [⟨r1_4, p0⟩] (ix3 (0 : Fin 1) t n)

/-- Group 0 of the staging buffer after the body: table 0 applied to the first 128 rows. -/
theorem out_group0 (x0 : Vec Ideal S256x8192 .bf16) (x1 : Vec Ideal S1024x8192 .bf16) (x2 : Vec Ideal S1024 .f32)
    (x3 : Vec Ideal S2x128x128 .bf16) (t : Fin 128) (n : Fin 1024) :
    out1_4 (F := Ideal) x0 x1 x2 x3 (ix3 (0 : Fin 2) t n)
      = ∑ s : Fin 128, x3 (ix3 (0 : Fin 2) t s) * ((∑ d : Fin 8192, x0 (ix2 (row 0 s) d) * x1 (ix2 n d)) + x2 (ix1 n)) := by
  unfold out1_4
  refine (canon_group0 _ _ t n).trans ?_
  refine (pay2_apply _ _ _ _ 0 t n).trans ?_
  rw [ld_rows, ld_matrix, ld_offsets]
  refine Finset.sum_congr rfl fun s _ => ?_
  rw [ld_table0]

/-- Group 1: table 1 applied to the last 128 rows. -/
theorem out_group1 (x0 : Vec Ideal S256x8192 .bf16) (x1 : Vec Ideal S1024x8192 .bf16) (x2 : Vec Ideal S1024 .f32)
    (x3 : Vec Ideal S2x128x128 .bf16) (t : Fin 128) (n : Fin 1024) :
    out1_4 (F := Ideal) x0 x1 x2 x3 (ix3 (1 : Fin 2) t n)
      = ∑ s : Fin 128, x3 (ix3 (1 : Fin 2) t s) * ((∑ d : Fin 8192, x0 (ix2 (row 1 s) d) * x1 (ix2 n d)) + x2 (ix1 n)) := by
  unfold out1_4
  refine (canon_group1 _ _ t n).trans ?_
  refine (pay3_apply _ _ _ _ 0 t n).trans ?_
  rw [ld_rows, ld_matrix, ld_offsets]
  refine Finset.sum_congr rfl fun s _ => ?_
  rw [ld_table1]

/-- Either group. -/
theorem out_apply (x0 : Vec Ideal S256x8192 .bf16) (x1 : Vec Ideal S1024x8192 .bf16) (x2 : Vec Ideal S1024 .f32)
    (x3 : Vec Ideal S2x128x128 .bf16) (i : Fin 2) (t : Fin 128) (n : Fin 1024) :
    out1_4 (F := Ideal) x0 x1 x2 x3 (ix3 i t n)
      = ∑ s : Fin 128, x3 (ix3 i t s) * ((∑ d : Fin 8192, x0 (ix2 (row i s) d) * x1 (ix2 n d)) + x2 (ix1 n)) := by
  match i with
  | ⟨0, _⟩ => exact out_group0 x0 x1 x2 x3 t n
  | ⟨1, _⟩ => exact out_group1 x0 x1 x2 x3 t n

/-- One entry of a point's block is one entry of the two-stage result, as soon as the four blocks the body reads
    are the parts of the four arrays that entry depends on. -/
theorem point_value (X0 : Vec Ideal S256x8192 .bf16) (X1 : Vec Ideal S1024x8192 .bf16) (X2 : Vec Ideal S1024 .f32)
    (X3 : Vec Ideal S2x128x128 .bf16)
    (A : (⟨3, ![16, 128, 128]⟩ : Shape).Idx → EReal) (Xf : (⟨2, ![2048, 8192]⟩ : Shape).Idx → EReal)
    (W3 : (⟨2, ![4096, 8192]⟩ : Shape).Idx → EReal) (B3 : (⟨1, ![4096]⟩ : Shape).Idx → EReal)
    (i : Fin 2) (t : Fin 128) (n : Fin 1024) (b : Fin 16) (col : Fin 4096)
    (h3 : ∀ s : Fin 128, X3 (ix3 i t s) = A (ix3 b t s))
    (h0 : ∀ (s : Fin 128) (d : Fin 8192), X0 (ix2 (row i s) d) = Xf (ix2 (Cert.Attn.flat b s) d))
    (h1 : ∀ d : Fin 8192, X1 (ix2 n d) = W3 (ix2 col d))
    (h2 : X2 (ix1 n) = B3 (ix1 col)) :
    out1_4 (F := Ideal) X0 X1 X2 X3 (ix3 i t n) = Cert.Attn.OutArr A Xf W3 B3 (ix3 b t col) := by
  refine (out_apply X0 X1 X2 X3 i t n).trans ?_
  show _ = Cert.Attn.mix (Cert.Attn.slab A b)
    (Cert.Attn.proj (fun (s : Fin 128) (d : Fin 8192) => Xf (ix2 (Cert.Attn.flat b s) d)) (Cert.Attn.tab W3) (Cert.Attn.fam B3)) t col
  unfold Cert.Attn.mix Cert.Attn.proj
  refine Finset.sum_congr rfl fun s _ => ?_
  refine congrArg₂ (· * ·) (h3 s) ?_
  refine congrArg₂ (· + ·) ?_ h2
  refine Finset.sum_congr rfl fun d _ => ?_
  exact congrArg₂ (· * ·) (h0 s d) (h1 d)

/-! ## The index maps over the grid -/

/-- The printed index maps, decided over the 32 points: the rows block and the weights block move with the output
    block's first index, the matrix and offsets blocks with its third; every other index is zero; the ranges. -/
theorem idx_facts : ∀ t : Fin cfg1.N,
    win1_0.index t (0 : Fin 2) = win1_4.index t (0 : Fin 3) ∧ win1_0.index t (1 : Fin 2) = 0
    ∧ win1_3.index t (0 : Fin 3) = win1_4.index t (0 : Fin 3) ∧ win1_3.index t (1 : Fin 3) = 0 ∧ win1_3.index t (2 : Fin 3) = 0
    ∧ win1_1.index t (0 : Fin 2) = win1_4.index t (2 : Fin 3) ∧ win1_1.index t (1 : Fin 2) = 0
    ∧ win1_2.index t (0 : Fin 1) = win1_4.index t (2 : Fin 3)
    ∧ win1_4.index t (1 : Fin 3) = 0
    ∧ win1_4.index t (0 : Fin 3) ≤ 7 ∧ win1_4.index t (2 : Fin 3) ≤ 3 :=
  (by decide +kernel : ∀ t : Fin grid1.N, _)

/-- Every pair of batch elements and every column tile is some point's. -/
theorem idx_onto : ∀ (q0 : Fin 8) (q2 : Fin 4), ∃ t : Fin cfg1.N, win1_4.index t = ![q0.val, 0, q2.val] :=
  (by decide +kernel : ∀ (q0 : Fin 8) (q2 : Fin 4), ∃ t : Fin grid1.N, win1_4.index t = ![q0.val, 0, q2.val])

/-! ## The blocks the body reads, as parts of their arrays -/

section Blocks

variable (V : (c : Dev nD) → (b : Ref sig .tc) → Buf (Elt Ideal) ((c : Thread nD τ).loc b))

/-- The rows block: its row r is the flat matrix's row (block index) · 256 + r. -/
theorem read_rows (c : Dev nD) (t : Fin cfg1.N) (r : Fin 256) (d : Fin 8192) (R : Fin 2048)
    (hR : R.val = win1_0.index t (0 : Fin 2) * 256 + r.val) :
    iblk1 (F := Ideal) V c 0 t (ix2 r d) = V c main_v4 (ix2 R d) := by
  obtain ⟨e0, e0z, e3, e3a, e3b, e1, e1z, e2, e4z, hb, hg⟩ := idx_facts t
  show V c main_v4 (((cfg1.win 0).blk t).view.emb (ix2 r d)) = V c main_v4 (ix2 R d)
  refine congrArg (V c main_v4) (funext fun a => Fin.ext ?_)
  match a with
  | ⟨0, _⟩ => show win1_0.index t (0 : Fin 2) * 256 + 1 * r.val = R.val; omega
  | ⟨1, _⟩ => show win1_0.index t (1 : Fin 2) * 8192 + 1 * d.val = d.val; omega

/-- The matrix block: its row n is the matrix's row (block index) · 1024 + n. -/
theorem read_matrix (c : Dev nD) (t : Fin cfg1.N) (n : Fin 1024) (d : Fin 8192) (col : Fin 4096)
    (hcol : col.val = win1_1.index t (0 : Fin 2) * 1024 + n.val) :
    iblk1 (F := Ideal) V c 1 t (ix2 n d) = V c main_v2 (ix2 col d) := by
  obtain ⟨e0, e0z, e3, e3a, e3b, e1, e1z, e2, e4z, hb, hg⟩ := idx_facts t
  show V c main_v2 (((cfg1.win 1).blk t).view.emb (ix2 n d)) = V c main_v2 (ix2 col d)
  refine congrArg (V c main_v2) (funext fun a => Fin.ext ?_)
  match a with
  | ⟨0, _⟩ => show win1_1.index t (0 : Fin 2) * 1024 + 1 * n.val = col.val; omega
  | ⟨1, _⟩ => show win1_1.index t (1 : Fin 2) * 8192 + 1 * d.val = d.val; omega

/-- The offsets block: its entry n is the offsets' entry (block index) · 1024 + n. -/
theorem read_offsets (c : Dev nD) (t : Fin cfg1.N) (n : Fin 1024) (col : Fin 4096)
    (hcol : col.val = win1_2.index t (0 : Fin 1) * 1024 + n.val) :
    iblk1 (F := Ideal) V c 2 t (ix1 n) = V c main_arg7 (ix1 col) := by
  show V c main_arg7 (((cfg1.win 2).blk t).view.emb (ix1 n)) = V c main_arg7 (ix1 col)
  refine congrArg (V c main_arg7) (funext fun a => Fin.ext ?_)
  match a with
  | ⟨0, _⟩ => show win1_2.index t (0 : Fin 1) * 1024 + 1 * n.val = col.val; omega

/-- The weights block: its table i is batch element (block index) · 2 + i's. -/
theorem read_weights (c : Dev nD) (t : Fin cfg1.N) (i : Fin 2) (t' s : Fin 128) (b : Fin 16)
    (hb : b.val = win1_3.index t (0 : Fin 3) * 2 + i.val) :
    iblk1 (F := Ideal) V c 3 t (ix3 i t' s) = V c main_v3_0 (ix3 b t' s) := by
  obtain ⟨e0, e0z, e3, e3a, e3b, e1, e1z, e2, e4z, hb', hg⟩ := idx_facts t
  show V c main_v3_0 (((cfg1.win 3).blk t).view.emb (ix3 i t' s)) = V c main_v3_0 (ix3 b t' s)
  refine congrArg (V c main_v3_0) (funext fun a => Fin.ext ?_)
  match a with
  | ⟨0, _⟩ => show win1_3.index t (0 : Fin 3) * 2 + 1 * i.val = b.val; omega
  | ⟨1, _⟩ => show win1_3.index t (1 : Fin 3) * 128 + 1 * t'.val = t'.val; omega
  | ⟨2, _⟩ => show win1_3.index t (2 : Fin 3) * 128 + 1 * s.val = s.val; omega

/-! ## What a point writes back, the cover, the array -/

/-- WHAT POINT t WRITES BACK is block t of the two-stage result of the arrays as the region finds them. -/
theorem flushed_eq (c : Dev nD) (t : Fin cfg1.N) :
    (dat1 (F := Ideal) V c).flushed 4 t
      = ((cfg1.win 4).blk t).view.read (Elt Ideal)
          (Cert.Attn.OutArr (V c main_v3_0) (V c main_v4) (V c main_v2) (V c main_arg7)) := by
  show (cfg1.win 4).cut (grid1.coords t) ((dat1 (F := Ideal) V c).after 4 t) = _
  rw [after1_4]
  obtain ⟨e0, e0z, e3, e3a, e3b, e1, e1z, e2, e4z, hb, hg⟩ := idx_facts t
  funext y
  have hy0 : (y 0).val < 2 := (y 0).isLt
  have hy1 : (y 1).val < 128 := (y 1).isLt
  have hy2 : (y 2).val < 1024 := (y 2).isLt
  obtain ⟨i, hi⟩ : ∃ i : Fin 2, i.val = (y 0).val := ⟨⟨(y 0).val, hy0⟩, rfl⟩
  obtain ⟨t', ht'⟩ : ∃ t' : Fin 128, t'.val = (y 1).val := ⟨⟨(y 1).val, hy1⟩, rfl⟩
  obtain ⟨n, hn⟩ : ∃ n : Fin 1024, n.val = (y 2).val := ⟨⟨(y 2).val, hy2⟩, rfl⟩
  obtain ⟨b, hbv⟩ : ∃ b : Fin 16, b.val = win1_4.index t (0 : Fin 3) * 2 + i.val :=
    ⟨⟨win1_4.index t (0 : Fin 3) * 2 + i.val, by have := i.isLt; omega⟩, rfl⟩
  obtain ⟨col, hcol⟩ : ∃ col : Fin 4096, col.val = win1_4.index t (2 : Fin 3) * 1024 + n.val :=
    ⟨⟨win1_4.index t (2 : Fin 3) * 1024 + n.val, by have := n.isLt; omega⟩, rfl⟩
  have hL : (cfg1.win 4).xinj (grid1.coords t) y = ix3 i t' n := funext fun a => Fin.ext (by
    match a with
    | ⟨0, _⟩ => exact hi.symm
    | ⟨1, _⟩ => exact ht'.symm
    | ⟨2, _⟩ => exact hn.symm)
  have hR : ((cfg1.win 4).blk t).view.emb y = ix3 b t' col := funext fun a => Fin.ext (by
    match a with
    | ⟨0, _⟩ => show win1_4.index t (0 : Fin 3) * 2 + 1 * (y 0).val = b.val; omega
    | ⟨1, _⟩ => show win1_4.index t (1 : Fin 3) * 128 + 1 * (y 1).val = t'.val; omega
    | ⟨2, _⟩ => show win1_4.index t (2 : Fin 3) * 1024 + 1 * (y 2).val = col.val; omega)
  refine (congrArg (out1_4 (F := Ideal) (iblk1 V c 0 t) (iblk1 V c 1 t) (iblk1 V c 2 t) (iblk1 V c 3 t)) hL).trans ?_
  refine Eq.trans ?_ (congrArg (Cert.Attn.OutArr (V c main_v3_0) (V c main_v4) (V c main_v2) (V c main_arg7)) hR.symm)
  refine point_value (iblk1 V c 0 t) (iblk1 V c 1 t) (iblk1 V c 2 t) (iblk1 V c 3 t)
    (V c main_v3_0) (V c main_v4) (V c main_v2) (V c main_arg7) i t' n b col ?_ ?_ ?_ ?_
  · intro s
    exact read_weights V c t i t' s b (by omega)
  · intro s d
    have hrow : (row i s).val = i.val * 128 + s.val := rfl
    have hflat : (Cert.Attn.flat b s).val = b.val * 128 + s.val := rfl
    exact read_rows V c t (row i s) d (Cert.Attn.flat b s) (by omega)
  · intro d
    exact read_matrix V c t n d col (by omega)
  · exact read_offsets V c t n col (by omega)

/-- An index of the array is in point t's block iff each coordinate is in the block's range on its axis. -/
theorem mem_blk (t : Fin cfg1.N) (i : S16x128x4096.Idx) :
    i ∈ ((cfg1.win 4).blk t).view.set ↔ ∀ a : Fin 3, win1_4.index t a * S2x128x1024.size a ≤ (i a).val
      ∧ (i a).val < win1_4.index t a * S2x128x1024.size a + S2x128x1024.size a := by
  show i ∈ ((View.whole main_v5).slice (win1_4.rect t)).set ↔ _
  rw [View.set_slice_whole, Rect.mem_set_unit]
  exact Iff.rfl

/-- Every index of the array is in some point's block: batch element b in the pair b / 2, column n in the tile
    n / 1024, every row in the one block of rows. -/
theorem cover (i : S16x128x4096.Idx) :
    ∃ t : Fin cfg1.N, (cfg1.win 4).flush t = true ∧ i ∈ ((cfg1.win 4).blk t).view.set := by
  have hi0 : (i 0).val < 16 := (i 0).isLt
  have hi1 : (i 1).val < 128 := (i 1).isLt
  have hi2 : (i 2).val < 4096 := (i 2).isLt
  obtain ⟨t, ht⟩ := idx_onto ⟨(i 0).val / 2, by omega⟩ ⟨(i 2).val / 1024, by omega⟩
  have q0 : win1_4.index t (0 : Fin 3) = (i 0).val / 2 := congrFun ht 0
  have q1 : win1_4.index t (1 : Fin 3) = 0 := congrFun ht 1
  have q2 : win1_4.index t (2 : Fin 3) = (i 2).val / 1024 := congrFun ht 2
  refine ⟨t, flush1_4 t, ?_⟩
  rw [mem_blk]
  intro a
  match a with
  | ⟨0, _⟩ => show win1_4.index t (0 : Fin 3) * 2 ≤ (i 0).val ∧ (i 0).val < win1_4.index t (0 : Fin 3) * 2 + 2; omega
  | ⟨1, _⟩ => show win1_4.index t (1 : Fin 3) * 128 ≤ (i 1).val ∧ (i 1).val < win1_4.index t (1 : Fin 3) * 128 + 128; omega
  | ⟨2, _⟩ => show win1_4.index t (2 : Fin 3) * 1024 ≤ (i 2).val ∧ (i 2).val < win1_4.index t (2 : Fin 3) * 1024 + 1024; omega

end Blocks

/-- THE ARRAY the second kernel's output window leaves: the second stage of the result, of the weights, the flat
    matrix, the third affine map's matrix and its offsets as the region finds them. -/
theorem final4 (V : (c : Dev nD) → (b : Ref sig .tc) → Buf (Elt Ideal) ((c : Thread nD τ).loc b)) (c : Dev nD) :
    (dat1 (F := Ideal) V c).arrAt 4 cfg1.N = Cert.Attn.OutArr (V c main_v3_0) (V c main_v4) (V c main_v2) (V c main_arg7) :=
  (dat1 (F := Ideal) V c).arrAt_eq_of_cover 4 _ (fun t _ => flushed_eq V c t) cover

end Cert.KernelIdeal.Region1

end
-- ==== Proof.KernelRun.lean ====
/-
  The idealized kernel's whole run, with its result named.

  The program is five stretches in a row: host operations, the first kernel region, host operations, the second kernel
  region, host operations. The buffer contents at each boundary are a fold from the launch memory: a host stretch
  applies its operations' functions, a kernel region replaces each of its arrays by what its grid of write-backs
  leaves. Every weakly fair execution terminates in a memory that holds, at every unscoped buffer, the last boundary's
  contents; the arguments are among those buffers and are never written, and so is the result, read here at the
  last boundary's contents (which the next modules compute).
-/
import proofs.«149429_j80951543595323_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument as launched. -/
theorem run_result : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Whole

end
-- ==== Proof.KernelResult.lean ====
/-
  The idealized kernel's result as one function of its arguments.

  The second region's array ends as the second-stage formula of what it found at entry; what it found are the table of
  weights, the flattened first input (row `b · 128 + s` of the flat matrix is row `s` of batch element `b`: both are
  position `(b · 128 + s) · 8192 + d` in row-major order), the third matrix and its offsets. So the array is the
  one-stage result `Cert.Attn.Out`, and the program's result is that array reshaped to [16, 128, 16, 16, 16].
-/
import proofs.«149429_j80951543595323_2_alg».proof.Proof.Boundaries
import proofs.«149429_j80951543595323_2_alg».proof.Proof.Region1Array
import proofs.«149429_j80951543595323_2_alg».proof.Proof.SpecArr
import proofs.«149429_j80951543595323_2_alg».proof.Proof.KernelRun

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Attn

variable (m : (ℓ : Loc nD τ sig) → Buf (Elt Ideal) ℓ) (ρ : Dev nD → PrngReg)

/-- Row `b · 128 + s` of the flattened array is row `s` of batch element `b`. -/
theorem flat_rows (X : S16x128x8192.Idx → EReal) (h : S16x128x8192.ShapeCasts S2048x8192) (b : Fin 16) (s : Fin 128) (d : Fin 8192) :
    shapeCast S2048x8192 X h (ix2 (flat b s) d) = X (ix3 b s d) :=
  shapeCast_apply X h _ _ (by
    rw [Shape.rowMajor_val_three, Shape.rowMajor_val_two]
    show (b.val * 128 + s.val) * 8192 + d.val = (b.val * 128 + s.val) * 8192 + d.val
    rfl)

/-- The whole result before its last reshape, of the launch memory. -/
abbrev out (c : Dev nD) : S16x128x4096.Idx → EReal :=
  Out (X1 m c) (X2 m c) (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- At the second region's exit its output array holds the whole result. -/
theorem exit1_out (c : Dev nD) : W4 m ρ c (Proc.devRef .tc main_v5) = out m c := by
  refine (W4_arr m ρ c 4).trans ((Region1.final4 (V3 m ρ) c).trans ?_)
  rw [entry1_weights, entry1_flat, entry1_w3, entry1_b3]
  exact Out_eq_OutArr (X1 m c) (X2 m c) _ _ _ _ _ _ _ (fun b s d => flat_rows _ _ b s d)

/-- The result buffer at the last boundary: the whole result, reshaped. -/
theorem result (c : Dev nD) :
    W5 m ρ c (Proc.devRef .tc main_v6)
      = shapeCast S16x128x16x16x16 (out m c) Facts₀.shapeCasts_S16x128x4096_S16x128x16x16x16 := by
  show StableHlo.after hostOps2 (W4 m ρ c) (Proc.devRef .tc main_v6) = _
  after_results
  rw [exit1_out]
  rfl

/-- Every weakly fair execution of the idealized kernel terminates with its result at the reshaped whole result of the
    arguments, and the arguments unchanged. -/
theorem run : θ_run defs (onTc (τ := τ) (main (F := Ideal))) ⟨m, fun _ => 0, ρ⟩ (fun r => ∀ c : Dev nD,
      r.2.mem ((c.tc : Thread nD τ).loc main_v6)
        = shapeCast S16x128x16x16x16 (out m c) Facts₀.shapeCasts_S16x128x4096_S16x128x16x16x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (run_result m ρ)

end Cert.KernelIdeal.Whole

end
-- ==== Proof.RefIsSpec.lean ====
/-
  The reference program computes the specification's function.

  Stage by stage, at plain coordinates: the three affine maps of rows (queries, keys, values), the table of inner
  products of queries with keys, the largest entry of each column of that table (a fold of the larger-of-two from the
  start word over the column; taking the larger with the start word once more changes nothing), the shifted
  exponentials, the column totals (a finite sum from zero), the shares, and the shares applied to the values.
-/
import proofs.«149429_j80951543595323_2_alg».proof.Proof.Gen.ReferenceIdeal.Read
import proofs.«149429_j80951543595323_2_alg».proof.Proof.Spec
import Idealize.ShloMosaic.PureOps.Reduce
import Idealize.ShloMosaic.PureOps.Ideal.Laws
import Idealize.ShloMosaic.Lib.ValueIdx

noncomputable section

namespace Cert.RefBridge

open Cert.ReferenceIdeal Cert.ReferenceIdeal.Gen Cert.ReferenceIdeal.Read Idealize.ShloMosaic Idealize.ShloMosaic.ValueIdx Cert.Attn

/-! ## The composed index functions at coordinates -/

section Indices
variable (b : Fin 16) (t s : Fin 128)

theorem lidx_v2 (f : Fin 16) (k : Fin 8192) : lidx_main_v2 (ix3 b t f) k = ix3 b t k :=
  funext fun a => Fin.ext (by match a with | ⟨0, _⟩ => rfl | ⟨1, _⟩ => rfl | ⟨2, _⟩ => rfl)
theorem ridx_v2 (f : Fin 16) (k : Fin 8192) : ridx_main_v2 (ix3 b t f) k = ix2 f k :=
  funext fun a => Fin.ext (by match a with | ⟨0, _⟩ => rfl | ⟨1, _⟩ => rfl)
theorem idx_v3_v4 (f : Fin 16) : idx_main_v3 (idx_main_v4 (ix3 b t f)) = ix1 f :=
  funext fun a => Fin.ext (by match a with | ⟨0, _⟩ => rfl)

theorem lidx_v6 (f : Fin 16) (k : Fin 8192) : lidx_main_v6 (ix3 b t f) k = ix3 b t k :=
  funext fun a => Fin.ext (by match a with | ⟨0, _⟩ => rfl | ⟨1, _⟩ => rfl | ⟨2, _⟩ => rfl)
theorem ridx_v6 (f : Fin 16) (k : Fin 8192) : ridx_main_v6 (ix3 b t f) k = ix2 f k :=
  funext fun a => Fin.ext (by match a with | ⟨0, _⟩ => rfl | ⟨1, _⟩ => rfl)
theorem idx_v7_v8 (f : Fin 16) : idx_main_v7 (idx_main_v8 (ix3 b t f)) = ix1 f :=
  funext fun a => Fin.ext (by match a with | ⟨0, _⟩ => rfl)

theorem lidx_v22 (g : Fin 4096) (k : Fin 8192) : lidx_main_v22 (ix3 b t g) k = ix3 b t k :=
  funext fun a => Fin.ext (by match a with | ⟨0, _⟩ => rfl | ⟨1, _⟩ => rfl | ⟨2, _⟩ => rfl)
theorem ridx_v22 (g : Fin 4096) (k : Fin 8192) : ridx_main_v22 (ix3 b t g) k = ix2 g k :=
  funext fun a => Fin.ext (by match a with | ⟨0, _⟩ => rfl | ⟨1, _⟩ => rfl)
theorem idx_v23_v24 (g : Fin 4096) : idx_main_v23 (idx_main_v24 (ix3 b t g)) = ix1 g :=
  funext fun a => Fin.ext (by match a with | ⟨0, _⟩ => rfl)

theorem lidx_v10 (k : Fin 16) : lidx_main_v10 (ix3 b t s) k = ix3 b t k :=
  funext fun a => Fin.ext (by match a with | ⟨0, _⟩ => rfl | ⟨1, _⟩ => rfl | ⟨2, _⟩ => rfl)
theorem ridx_v10 (k : Fin 16) : ridx_main_v10 (ix3 b t s) k = ix3 b s k :=
  funext fun a => Fin.ext (by match a with | ⟨0, _⟩ => rfl | ⟨1, _⟩ => rfl | ⟨2, _⟩ => rfl)

theorem idx_v14_v15 : idx_main_v14 (idx_main_v15 (ix3 b t s)) = ix2 b s :=
  funext fun a => Fin.ext (by match a with | ⟨0, _⟩ => rfl | ⟨1, _⟩ => rfl)
theorem idx_v19_v20 : idx_main_v19 (idx_main_v20 (ix3 b t s)) = ix2 b s :=
  funext fun a => Fin.ext (by match a with | ⟨0, _⟩ => rfl | ⟨1, _⟩ => rfl)
theorem idx_v18 (k : Fin 128) : idx_main_v18 (ix2 b s) k = ix3 b k s :=
  funext fun a => Fin.ext (by match a with | ⟨0, _⟩ => rfl | ⟨1, _⟩ => rfl | ⟨2, _⟩ => rfl)

theorem lidx_v26 (g : Fin 4096) (k : Fin 128) : lidx_main_v26 (ix3 b t g) k = ix3 b t k :=
  funext fun a => Fin.ext (by match a with | ⟨0, _⟩ => rfl | ⟨1, _⟩ => rfl | ⟨2, _⟩ => rfl)
theorem ridx_v26 (g : Fin 4096) (k : Fin 128) : ridx_main_v26 (ix3 b t g) k = ix3 b k g :=
  funext fun a => Fin.ext (by match a with | ⟨0, _⟩ => rfl | ⟨1, _⟩ => rfl | ⟨2, _⟩ => rfl)

/-- The reduced index (b, s) with row t' put back on the middle axis is (b, t', s). -/
theorem lift_mid (h : S16x128x128.Reduces [1] S16x128) (k : Fin (S16x128x128.size 1)) :
    h.lift (ix2 b s) k = ix3 b (⟨k.val, k.isLt⟩ : Fin 128) s := by
  funext c; apply Fin.ext
  fin_cases c <;> rfl

end Indices

/-! ## The stages at coordinates -/

section Stages
variable (x0 x1 : (⟨S16x128x32x16x16, .f32⟩ : BufTy).Contents (Elt Ideal)) (x2 : (⟨S16x8192, .f32⟩ : BufTy).Contents (Elt Ideal))
  (x3 : (⟨S16, .f32⟩ : BufTy).Contents (Elt Ideal)) (x4 : (⟨S16x8192, .f32⟩ : BufTy).Contents (Elt Ideal))
  (x5 : (⟨S16, .f32⟩ : BufTy).Contents (Elt Ideal)) (x6 : (⟨S4096x8192, .f32⟩ : BufTy).Contents (Elt Ideal))
  (x7 : (⟨S4096, .f32⟩ : BufTy).Contents (Elt Ideal))
variable (b : Fin 16) (t s : Fin 128)

/-- The queries: the first affine map of the rows of the first array. -/
theorem q_at (f : Fin 16) :
    val_main_v5 (F := Ideal) x0 x2 x3 (ix3 b t f) = proj (slab (val_main_v0 (F := Ideal) x0) b) (tab x2) (fam x3) t f := by
  rw [val_main_v5_apply, val_main_v2_apply, val_main_v4_apply, val_main_v3_apply, idx_v3_v4, Ideal.addf_def]
  unfold proj
  refine congrArg (· + x3 (ix1 f)) (Finset.sum_congr rfl fun k _ => ?_)
  rw [lidx_v2, ridx_v2]

/-- The keys: the second affine map, of the rows of the second array. -/
theorem k_at (f : Fin 16) :
    val_main_v9 (F := Ideal) x1 x4 x5 (ix3 b s f) = proj (slab (val_main_v1 (F := Ideal) x1) b) (tab x4) (fam x5) s f := by
  rw [val_main_v9_apply, val_main_v6_apply, val_main_v8_apply, val_main_v7_apply, idx_v7_v8, Ideal.addf_def]
  unfold proj
  refine congrArg (· + x5 (ix1 f)) (Finset.sum_congr rfl fun k _ => ?_)
  rw [lidx_v6, ridx_v6]

/-- The values: the third affine map, of the rows of the first array. -/
theorem v_at (g : Fin 4096) :
    val_main_v25 (F := Ideal) x0 x6 x7 (ix3 b s g) = proj (slab (val_main_v0 (F := Ideal) x0) b) (tab x6) (fam x7) s g := by
  rw [val_main_v25_apply, val_main_v22_apply, val_main_v24_apply, val_main_v23_apply, idx_v23_v24, Ideal.addf_def]
  unfold proj
  refine congrArg (· + x7 (ix1 g)) (Finset.sum_congr rfl fun k _ => ?_)
  rw [lidx_v22, ridx_v22]

/-- The table of inner products of queries with keys. -/
theorem score_at :
    val_main_v10 (F := Ideal) x0 x1 x2 x3 x4 x5 (ix3 b t s)
      = score (proj (slab (val_main_v0 (F := Ideal) x0) b) (tab x2) (fam x3)) (proj (slab (val_main_v1 (F := Ideal) x1) b) (tab x4) (fam x5)) t s := by
  rw [val_main_v10_apply]
  unfold score
  refine Finset.sum_congr rfl fun k _ => ?_
  rw [lidx_v10, ridx_v10, q_at, k_at]

/-- The largest entry of a column of any [16, 128, 128] array, as the fold over the middle axis from the start word gives it. -/
theorem reduce_max_at (Y : (⟨S16x128x128, .f32⟩ : BufTy).Contents (Elt Ideal)) :
    Host.reduce (FloatOps.maximumf (F := Ideal) (φ := .f32)) Y (val_main_cst (F := Ideal)) reducesTo_S16x128x128_S16x128_d1 h_S_ (ix2 b s)
      = colMax fun t' => Y (ix3 b t' s) := by
  have h : S16x128x128.Reduces [1] S16x128 := by decide
  rw [Host.reduce_eq_fold_single (FloatOps.maximumf (F := Ideal) (φ := .f32)) Y _ reducesTo_S16x128x128_S16x128_d1 h h_S_]
  have hf : (Y ∘ h.lift (ix2 b s)) = fun t' : Fin 128 => Y (ix3 b t' s) := funext fun k => congrArg Y (lift_mid b s h k)
  exact congrArg (fun f => Finset.fold max (Ideal.ofBits .f32 0xFF800000#32) f (Finset.univ : Finset (Fin 128))) hf

/-- The largest entry of column s of the table of inner products; the further maximum with the start word is the identity. -/
theorem colmax_at :
    val_main_v13 (F := Ideal) x0 x1 x2 x3 x4 x5 (ix2 b s)
      = colMax fun t' => score (proj (slab (val_main_v0 (F := Ideal) x0) b) (tab x2) (fam x3)) (proj (slab (val_main_v1 (F := Ideal) x1) b) (tab x4) (fam x5)) t' s := by
  rw [val_main_v13_apply, val_main_v12_apply, val_main_cst_0_apply]
  unfold val_main_v11
  rw [reduce_max_at]
  have e : (fun t' : Fin 128 => val_main_v10 (F := Ideal) x0 x1 x2 x3 x4 x5 (ix3 b t' s))
      = fun t' => score (proj (slab (val_main_v0 (F := Ideal) x0) b) (tab x2) (fam x3)) (proj (slab (val_main_v1 (F := Ideal) x1) b) (tab x4) (fam x5)) t' s :=
    funext fun t' => score_at x0 x1 x2 x3 x4 x5 b t' s
  rw [e]
  exact max_negInf_colMax _

/-- The shifted exponentials. -/
theorem weight_at :
    val_main_v17 (F := Ideal) x0 x1 x2 x3 x4 x5 (ix3 b t s)
      = weight (score (proj (slab (val_main_v0 (F := Ideal) x0) b) (tab x2) (fam x3)) (proj (slab (val_main_v1 (F := Ideal) x1) b) (tab x4) (fam x5))) t s := by
  rw [val_main_v17_apply, val_main_v16_apply, val_main_v15_apply, val_main_v14_apply, idx_v14_v15, colmax_at, score_at,
    Ideal.hostUnary_exp_def, Ideal.subf_def]
  rfl

/-- The column totals of the shifted exponentials: a finite sum from zero. -/
theorem total_at :
    val_main_v18 (F := Ideal) x0 x1 x2 x3 x4 x5 (ix2 b s)
      = ∑ t' : Fin 128, weight (score (proj (slab (val_main_v0 (F := Ideal) x0) b) (tab x2) (fam x3)) (proj (slab (val_main_v1 (F := Ideal) x1) b) (tab x4) (fam x5))) t' s := by
  rw [val_main_v18_apply, val_main_cst_1_apply]
  show Ideal.ofBits .f32 0x00000000#32 + _ = _
  rw [Ideal.ofBits_zero_f32, zero_add]
  refine Finset.sum_congr rfl fun k _ => ?_
  rw [idx_v18, weight_at]

/-- The shares. -/
theorem soft_at :
    val_main_v21 (F := Ideal) x0 x1 x2 x3 x4 x5 (ix3 b t s)
      = soft (score (proj (slab (val_main_v0 (F := Ideal) x0) b) (tab x2) (fam x3)) (proj (slab (val_main_v1 (F := Ideal) x1) b) (tab x4) (fam x5))) t s := by
  rw [val_main_v21_apply, val_main_v20_apply, val_main_v19_apply, idx_v19_v20, total_at, weight_at, Ideal.hostDivf_def]
  rfl

end Stages

/-- The reference's result is the specification's function of the two reshaped arrays and the six parameter arrays. -/
theorem ref_out (x0 x1 : (⟨S16x128x32x16x16, .f32⟩ : BufTy).Contents (Elt Ideal)) (x2 : (⟨S16x8192, .f32⟩ : BufTy).Contents (Elt Ideal)) (x3 : (⟨S16, .f32⟩ : BufTy).Contents (Elt Ideal)) (x4 : (⟨S16x8192, .f32⟩ : BufTy).Contents (Elt Ideal)) (x5 : (⟨S16, .f32⟩ : BufTy).Contents (Elt Ideal)) (x6 : (⟨S4096x8192, .f32⟩ : BufTy).Contents (Elt Ideal)) (x7 : (⟨S4096, .f32⟩ : BufTy).Contents (Elt Ideal)) :
    Cert.ReferenceIdeal.Read.val_main_v26 (F := Ideal) x0 x1 x2 x3 x4 x5 x6 x7
      = Cert.Attn.Out (Cert.ReferenceIdeal.Read.val_main_v0 (F := Ideal) x0) (Cert.ReferenceIdeal.Read.val_main_v1 (F := Ideal) x1) x2 x3 x4 x5 x6 x7 := by
  funext i
  obtain ⟨b, t, g, rfl⟩ : ∃ (b : Fin 16) (t : Fin 128) (g : Fin 4096), i = ix3 b t g := ⟨i 0, i 1, i 2, eq_ix3 i⟩
  rw [val_main_v26_apply]
  show _ = ∑ s : Fin 128,
    soft (score (proj (slab (val_main_v0 (F := Ideal) x0) b) (tab x2) (fam x3)) (proj (slab (val_main_v1 (F := Ideal) x1) b) (tab x4) (fam x5))) t s
      * proj (slab (val_main_v0 (F := Ideal) x0) b) (tab x6) (fam x7) s g
  refine Finset.sum_congr rfl fun k _ => ?_
  rw [lidx_v26, ridx_v26, soft_at, v_at]

end Cert.RefBridge

end
-- ==== Proof.lean ====
/-
  The kernel and its reference compute one function over the extended reals.

  For each of 16 batch elements both programs form queries `q = x₁ w₁ᵀ + b₁` and keys `k = x₂ w₂ᵀ + b₂` (128 rows of
  16 features each, from the 128 × 8192 matrices `x₁`, `x₂` the inputs reshape to), the 128 × 128 table `q kᵀ`, the
  column-wise normalisation `exp (s − max) / Σ exp (s − max)` of that table (the maximum and the total taken down
  each column), values `v = x₁ w₃ᵀ + b₃` (4096 features), and the product of the normalised table with `v`, reshaped
  to [16, 128, 16, 16, 16]. The kernel does this in two grids — the first leaves the normalised table and a copy of
  `x₁`, the second tiles `v` and the last product by pairs of batch elements and by blocks of 1024 columns — and changes
  float formats on the way; over the extended reals a change of format is the identity and every sum is a finite sum in
  a commutative monoid, so neither the tiling nor the formats change the value. The reference takes one more maximum of
  each column's largest entry with −∞, which changes nothing. No step uses that the inputs are finite.

  Each of the three programs runs to the end and leaves its arguments unchanged (for the reference: its run with the
  result dropped). The idealized kernel is the kernel's own text read over the extended reals, with no operation
  replaced, so nothing is owed for that step. The last claim sets the kernel's run, with its result read as the function
  above, beside the reference's run, read as the same function.
-/
import proofs.«149429_j80951543595323_2_alg».proof.Defs
import proofs.«149429_j80951543595323_2_alg».proof.Proof.Gen.Kernel
import proofs.«149429_j80951543595323_2_alg».proof.Proof.Gen.Kernel.Skeleton
import proofs.«149429_j80951543595323_2_alg».proof.Proof.Gen.Kernel.Launch
import proofs.«149429_j80951543595323_2_alg».proof.Proof.Gen.Kernel.Points
import proofs.«149429_j80951543595323_2_alg».proof.Proof.Gen.Kernel.Frame
import proofs.«149429_j80951543595323_2_alg».proof.Proof.Gen.KernelIdeal
import proofs.«149429_j80951543595323_2_alg».proof.Proof.Gen.KernelIdeal.Skeleton
import proofs.«149429_j80951543595323_2_alg».proof.Proof.Gen.KernelIdeal.Launch
import proofs.«149429_j80951543595323_2_alg».proof.Proof.Gen.KernelIdeal.Points
import proofs.«149429_j80951543595323_2_alg».proof.Proof.Gen.KernelIdeal.Frame
import proofs.«149429_j80951543595323_2_alg».proof.Proof.Gen.ReferenceIdeal
import proofs.«149429_j80951543595323_2_alg».proof.Proof.Gen.Pre_finite_inputs
import proofs.«149429_j80951543595323_2_alg».proof.Proof.Gen.ReferenceIdeal.Run
import proofs.«149429_j80951543595323_2_alg».proof.Proof.Gen.ReferenceIdeal.Read
import proofs.«149429_j80951543595323_2_alg».proof.Proof.KernelResult
import proofs.«149429_j80951543595323_2_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the kernel's is the whole
    result of its arguments, reshaped; the reference's composed term is the same function of the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq]
  unfold Cert.ReferenceIdeal.Read.val_main_v27
  rw [Cert.RefBridge.ref_out, (hagree c).1, (hagree c).2.1, (hagree c).2.2.1, (hagree c).2.2.2.1, (hagree c).2.2.2.2.1,
    (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
